-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg7 : FVec F S128 .f32) (main_arg13 : FVec F S128 .f32) (main_v63 : IVec S_ 1) (main_v67 : IVec S_ 1) : IVec S_ 1 :=
  let main_v68 : IVec S_ 1 := andi main_v63 main_v67
  let main_cst_26 : FVec F S_ .f32 := constant S_ .f32 0x3A83126F#32
  let main_v69 : FVec F S128 .f32 := broadcastInDim S128 ![] bcast_S_S128 main_cst_26
  let main_v70 : FVec F S128 .f32 := addf main_arg7 main_v69
  let main_cst_27 : FVec F S_ .f32 := constant S_ .f32 0x00000000#32
  let main_v71 : FVec F S128 .f32 := broadcastInDim S128 ![] bcast_S_S128 main_cst_27
  let main_v72 : IVec S128 1 := cmpf .ogt main_v70 main_v71
  let main_c_28 : IVec S_ 1 := constantI S_ 1 1#1
  let main_v73 : IVec S_ 1 := (fun x v => Host.reduce IntOp.andi x v reducesTo_S128_S_d0 h_S_) main_v72 main_c_28
  let main_v74 : IVec S_ 1 := andi main_v68 main_v73
  let main_cst_29 : FVec F S_ .f32 := constant S_ .f32 0x3A83126F#32
  let main_v75 : FVec F S128 .f32 := broadcastInDim S128 ![] bcast_S_S128 main_cst_29
  let main_v76 : FVec F S128 .f32 := addf main_arg13 main_v75
  let main_cst_30 : FVec F S_ .f32 := constant S_ .f32 0x00000000#32
  let main_v77 : FVec F S128 .f32 := broadcastInDim S128 ![] bcast_S_S128 main_cst_30
  let main_v78 : IVec S128 1 := cmpf .ogt main_v76 main_v77
  let main_c_31 : IVec S_ 1 := constantI S_ 1 1#1
  let main_v79 : IVec S_ 1 := (fun x v => Host.reduce IntOp.andi x v reducesTo_S128_S_d0 h_S_) main_v78 main_c_31
  let main_v80 : IVec S_ 1 := andi main_v74 main_v79
  main_v80

def fn_part3 {F : FTy → Type} [FloatOps F] (main_arg7 : FVec F S128 .f32) (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg7 main_arg13 main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg7 main_arg11 main_arg12 main_arg13 main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S400x10000 : Shape := ⟨2, ![400, 10000]⟩
abbrev S400x128 : Shape := ⟨2, ![400, 128]⟩

abbrev nBuf : Space → Nat
  | .hbm => 40
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S128x128, .f32⟩
  | .hbm, ⟨34, _⟩ => ⟨S128x128, .f32⟩
  | .hbm, ⟨35, _⟩ => ⟨S10000x128, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | .local _ .vmem, ⟨8, _⟩ => ⟨S10000x128, .f32⟩
  | .local _ .vmem, ⟨9, _⟩ => ⟨S128x128, .f32⟩
  | .local _ .vmem, ⟨10, _⟩ => ⟨S1x128, .f32⟩
  | .local _ .vmem, ⟨11, _⟩ => ⟨S400x10000, .f32⟩
  | .local _ .vmem, ⟨12, _⟩ => ⟨S400x10000, .f32⟩
  | .local _ .vmem, ⟨13, _⟩ => ⟨S400x128, .f32⟩
  | .local _ .vmem, ⟨14, _⟩ => ⟨S400x128, .f32⟩
  | .local _ .vmem, ⟨15, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S128 : S_.BroadcastsInDim S128 (![] : Fin 0 → Fin S128.rank)
  shapeCasts_S128_S1x128 : S128.ShapeCasts S1x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .f32 = 32 ∨ (Rect.block (s := S10000x10000) S400x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S400x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | .hbm, ⟨59, _⟩ => ⟨S_, .f32⟩
  | .hbm, ⟨60, _⟩ => ⟨S10000x128, .f32⟩
  | .hbm, ⟨61, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S128 : S_.BroadcastsInDim S128 (![] : Fin 0 → Fin S128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Body0.lean ====
/-
  One layer's kernel body, first region. At every grid point the body multiplies the point's strip of the
  adjacency matrix (400 rows, all 10000 columns) by a 10000 x 128 matrix Z kept in a scratch buffer, adds the
  bias row and clamps at zero. Z itself is the product of the whole feature matrix with the whole (scaled)
  weight matrix; the body computes it only at the first grid point, storing it over the whole scratch, and at
  every later point reads the scratch as the first point left it. So the body has two control cases, told apart
  by whether the point's coordinate is zero. Every load and store goes through a whole buffer, so a load reads the
  buffer's contents and a store replaces them: after the first point the scratch holds Z and the output block the
  layer's value computed from the strip, Z and the bias row; after a later point the scratch is unchanged and the
  output block is the layer's value computed from the strip, the scratch's contents and the bias row.
-/
import proofs.«127892_g13743895347428_cont_sun_m_1394_3_alg».proof.Proof.Gen.Kernel.Launch
import proofs.«127892_g13743895347428_cont_sun_m_1394_3_alg».proof.Proof.Gen.Kernel.Skeleton
import proofs.«127892_g13743895347428_cont_sun_m_1394_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinate: the coordinate is zero. -/
abbrev isFirst (i : grid0.Coords) : Prop :=
  (Scalar.cmpi .ne (Scalar.extui (Scalar.cmpi .eq (BitVec.ofNat 32 (i 0).val) 0#32)) 0#32) = 1#1

/-- It holds at the first of the 25 points and at no other. -/
theorem isFirst_iff : ∀ t : Fin cfg0.N, isFirst (grid0.coords t) ↔ t.val = 0 :=
  (by decide +kernel : ∀ t : Fin grid0.N, isFirst (grid0.coords t) ↔ t.val = 0)

/-- The offsets of every access of the body are zero. -/
theorem off0 : (![0, 0] : Fin 2 → Nat) = fun _ => 0 := funext fun a => by
  match a with
  | ⟨0, _⟩ => rfl
  | ⟨1, _⟩ => rfl

/-- The rectangle of the body's store into the output block: the whole block. -/
abbrev rOut : Rect S400x128 := Rect.unit (s := S400x128) ![0, 0] S400x128.size inb_S400x128_S400x128_0_0
/-- The rectangle of the body's store into the scratch: the whole scratch. -/
abbrev rScr : Rect S10000x128 := Rect.unit (s := S10000x128) ![0, 0] S10000x128.size inb_S10000x128_S10000x128_0_0

/-- One store through a whole-buffer rectangle covers the buffer. -/
theorem coverOut (v : Vec F S400x128 .f32) (y : S400x128.Idx) :
    ∃ pc ∈ ([⟨rOut, v⟩] : List (View.Piece (Elt F) S400x128 .f32)), y ∈ pc.1.set :=
  ⟨_, List.mem_singleton_self _, View.mem_set_unit_zero off0 inb_S400x128_S400x128_0_0 y⟩
theorem coverScr (v : Vec F S10000x128 .f32) (y : S10000x128.Idx) :
    ∃ pc ∈ ([⟨rScr, v⟩] : List (View.Piece (Elt F) S10000x128 .f32)), y ∈ pc.1.set :=
  ⟨_, List.mem_singleton_self _, View.mem_set_unit_zero off0 inb_S10000x128_S10000x128_0_0 y⟩

set_option maxHeartbeats 4000000 in
/-- THE FIRST POINT. Features, weights, bias row and strip are held at given contents, the output block and the
    scratch at anything; the body ends with the four inputs as they were, the scratch at the product of the feature
    block and the weight block, and the output block at the layer's value of the strip, that product and the bias row. -/
theorem sound_first (c : Dev nD) (i : grid0.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : isFirst i) (x0 : Vec F S10000x128 .f32) (x1 : Vec F S128x128 .f32) (x2 : Vec F S1x128 .f32) (x3 : Vec F S400x10000 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay2 x3 (k0_pay1 x0 x1) x2)
            ∗ owns (c : Thread nD τ) arg6 fullShare (k0_pay1 x0 x1)) -∗ K ⟨⟩))
      ⊢ wp frame (wpE (defs₀ (F := F)) Variants.none c none) E
          (cc0__layer_body i arg1 harg1 arg2 harg2 arg3 harg3 arg4 harg4 arg5 harg5 arg6 harg6) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0, View.ld_unit_zero (S := S128x128) off0,
      View.ld_unit_zero (S := S1x128) off0, View.ld_unit_zero (S := S400x10000) off0]
    exact congrArg (fun z => k0_pay2 _ z _)
      (View.readCov_unit_zero (S := S10000x128) arg6.view off0 inb_S10000x128_S10000x128_0_0 _)
  iexists _; isplitr
  swap; · iexact H6
  ipureintro
  refine (View.read_writes_eq_canon _ _ _ (coverScr _)).trans ?_
  refine (View.canon_unit_zero off0 _ _).trans ?_
  sl_unfold_words
  simp only [View.readAt_eq_ld, View.ld_unit_zero (S := S10000x128) off0, View.ld_unit_zero (S := S128x128) off0]

set_option maxHeartbeats 4000000 in
/-- A LATER POINT. The scratch holds given contents `z`; the body skips the branch, reads the scratch, and ends with
    the inputs and the scratch as they were and the output block at the layer's value of the strip, `z` and the bias row. -/
theorem sound_later (c : Dev nD) (i : grid0.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : ¬ isFirst i) (x0 : Vec F S10000x128 .f32) (x1 : Vec F S128x128 .f32) (x2 : Vec F S1x128 .f32) (x3 : Vec F S400x10000 .f32) (z : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare z
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay2 x3 z x2)
            ∗ owns (c : Thread nD τ) arg6 fullShare z) -∗ K ⟨⟩))
      ⊢ wp frame (wpE (defs₀ (F := F)) Variants.none c none) E
          (cc0__layer_body i arg1 harg1 arg2 harg2 arg3 harg3 arg4 harg4 arg5 harg5 arg6 harg6) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0,
      View.ld_unit_zero (S := S1x128) off0, View.ld_unit_zero (S := S400x10000) off0]
  iexists _; isplitr; · ipureintro; rfl
  iexact H6

end Cert.Kernel.Layer0

end
-- ==== Proof.K.Data0.lean ====
/-
  The first region's proof data. The region's five windows are the whole feature matrix, the whole weight matrix,
  the bias row (one block each, the same at every grid point), the adjacency matrix cut into 25 strips of 400
  rows, and the result cut the same way. After the body at point t the four input buffers hold their blocks, and
  the output buffer holds the layer's value on strip t: the strip times Z, plus the bias row, clamped at zero,
  where Z = features x weights is what the first point stored in the scratch. Between points the region keeps
  the scratch: before the first point at anything, after any point at Z.
-/
import proofs.«127892_g13743895347428_cont_sun_m_1394_3_alg».proof.Proof.Gen.Kernel.Launch
import proofs.«127892_g13743895347428_cont_sun_m_1394_3_alg».proof.Proof.Gen.Kernel.Skeleton
import proofs.«127892_g13743895347428_cont_sun_m_1394_3_alg».proof.Proof.Gen.Kernel.Points
import proofs.«127892_g13743895347428_cont_sun_m_1394_3_alg».proof.Proof.K.Body0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t₀ : Fin cfg0.N := ⟨0, by decide⟩

/-- Z: the product of the whole feature block and the whole weight block — what the first point leaves in the scratch. -/
def zval (c : Dev nD) : Vec F S10000x128 .f32 := k0_pay1 (iblk V c 0 t₀) (iblk V c 1 t₀)

/-- The layer's value on strip `t`. -/
def outAt (c : Dev nD) (t : Fin cfg0.N) : Vec F S400x128 .f32 := k0_pay2 (iblk V c 3 t) (zval V c) (iblk V c 2 t)

/-- The scratch as a memref: a whole scoped buffer of the region's own. -/
abbrev scM : Memref sig .tc .vmem S10000x128 .f32 := Memref.whole cc0_scratch0

/-- The core's scoped buffers that are neither a staging buffer of this region nor its scratch (the other region's
    staging buffers and scratch), each at some contents: carried unopened. -/
abbrev others (c : Dev nD) : sProp 𝕄 :=
  Pipeline.scopedRestBut (Ix := Unit) (Name := ℕ) (U := UR sig nD τ) (Lvl := ℕ) (Val := Elt F) spec0 c [cc0_scratch0]

/-- The scoped buffers no window of this region stages: the scratch at some contents, and the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others (F := F) c) := by
  rw [Pipeline.scopedRest_split_of_list spec0 c [cc0_scratch0] (by decide) (by decide)]
  simp only [scM, owns_whole]
  rfl

/-- The region's invariant before position `n`: before the first point the scoped rest at anything and the generator
    register; afterwards the same with the scratch at Z. -/
def Phi (c : Dev nD) : ℕ → sProp 𝕄
  | 0 => Pipeline.ΦA spec0 c
  | _ + 1 => iprop((owns (c : Thread nD τ) scM fullShare (zval V c) ∗ others (F := F) c) ∗ ∃ r, prngReg c r)

theorem Phi_pos (c : Dev nD) (n : ℕ) (hn : n ≠ 0) :
    Phi V c n = iprop((owns (c : Thread nD τ) scM fullShare (zval V c) ∗ others (F := F) c) ∗ ∃ r, prngReg c r) := by
  cases n with
  | zero => exact absurd rfl hn
  | succ n => rfl

/-- The proof data: the arrays as the region finds them; after the body each input's buffer at its block and the
    output's at the layer's value on the strip; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := Phi V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAt V c t := by dsimp only [dat]

/-- Each input's current staging buffer holds its block at every point, fetched there or not: an input the body
    leaves in place keeps the block it was last fetched with, and its block index has not moved since. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point. The inputs' memrefs hold their blocks; whether the point is the first decides the control
    case. At the first point the invariant hands over the scratch at anything and takes it back at Z; at a later point
    it hands the scratch over at Z and takes it back unchanged. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = iprop((owns (c : Thread nD τ) scM fullShare (zval V c) ∗ others (F := F) c) ∗ ∃ r, prngReg c r) from rfl,
    show (dat V c).Φ t.castSucc = Phi V c t.val from rfl,
    after_0, after_1, after_2, after_3, after_4]
  by_cases hz : t.val = 0
  · obtain rfl : t = t₀ := Fin.ext hz
    rw [show Phi V c (t₀ : Fin cfg0.N).val = Pipeline.ΦA spec0 c from rfl]
    unfold Pipeline.ΦA; rw [scopedRest_split]
    iintro ⟨⟨⟨HS, Hoth⟩, Hg⟩, Ho, ⟨%d0, H0⟩, ⟨%d1, H1⟩, ⟨%d2, H2⟩, ⟨%d3, H3⟩, ⟨%d4, H4⟩⟩
    iapply (sound_first c (grid0.coords t₀) _ _ _ _ _ _ _ _ _ _ _ _ ((isFirst_iff t₀).mpr rfl)
      (iblk V c 0 t₀) (iblk V c 1 t₀) (iblk V c 2 t₀) (iblk V c 3 t₀) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Phi_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (sound_later c (grid0.coords t) _ _ _ _ _ _ _ _ _ _ _ _ (fun h => hz ((isFirst_iff t).mp h))
      (iblk V c 0 t) (iblk V c 1 t) (iblk V c 2 t) (iblk V c 3 t) (zval V c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W0, bigSep_W0]
  exact sound_body V c t

/-- Before the first point the invariant is the class's: what the launch hands the region. -/
theorem Phi_first (c : Dev nD) : (dat V c).Φ 0 = Pipeline.ΦA spec0 c := rfl

/-- After the last point the invariant gives the scoped rest back, the scratch's contents forgotten. -/
theorem Phi_last (c : Dev nD) : (dat V c).Φ (Fin.last cfg0.N) ⊢ Pipeline.ΦA spec0 c := by
  rw [show (dat V c).Φ (Fin.last cfg0.N) = Phi V c (Fin.last cfg0.N).val from rfl,
    Phi_pos V c _ (by rw [Fin.val_last]; have : cfg0.N = 25 := N_0; omega)]
  unfold Pipeline.ΦA; rw [scopedRest_split]
  iintro ⟨⟨HS, Hoth⟩, Hg⟩
  isplitl [HS Hoth]
  · isplitl [HS]; · iexists _; iexact HS
    iexact Hoth
  iexact Hg

end Cert.Kernel.Layer0

end
-- ==== Proof.K.Body1.lean ====
/-
  One layer's kernel body, second region. At every grid point the body multiplies the point's strip of the
  adjacency matrix (400 rows, all 10000 columns) by a 10000 x 128 matrix Z kept in a scratch buffer, adds the
  bias row and clamps at zero. Z itself is the product of the whole feature matrix with the whole (scaled)
  weight matrix; the body computes it only at the first grid point, storing it over the whole scratch, and at
  every later point reads the scratch as the first point left it. So the body has two control cases, told apart
  by whether the point's coordinate is zero. Every load and store goes through a whole buffer, so a load reads the
  buffer's contents and a store replaces them: after the first point the scratch holds Z and the output block the
  layer's value computed from the strip, Z and the bias row; after a later point the scratch is unchanged and the
  output block is the layer's value computed from the strip, the scratch's contents and the bias row.
-/
import proofs.«127892_g13743895347428_cont_sun_m_1394_3_alg».proof.Proof.Gen.Kernel.Launch
import proofs.«127892_g13743895347428_cont_sun_m_1394_3_alg».proof.Proof.Gen.Kernel.Skeleton
import proofs.«127892_g13743895347428_cont_sun_m_1394_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinate: the coordinate is zero. -/
abbrev isFirst (i : grid1.Coords) : Prop :=
  (Scalar.cmpi .ne (Scalar.extui (Scalar.cmpi .eq (BitVec.ofNat 32 (i 0).val) 0#32)) 0#32) = 1#1

/-- It holds at the first of the 25 points and at no other. -/
theorem isFirst_iff : ∀ t : Fin cfg1.N, isFirst (grid1.coords t) ↔ t.val = 0 :=
  (by decide +kernel : ∀ t : Fin grid1.N, isFirst (grid1.coords t) ↔ t.val = 0)

/-- The offsets of every access of the body are zero. -/
theorem off0 : (![0, 0] : Fin 2 → Nat) = fun _ => 0 := funext fun a => by
  match a with
  | ⟨0, _⟩ => rfl
  | ⟨1, _⟩ => rfl

/-- The rectangle of the body's store into the output block: the whole block. -/
abbrev rOut : Rect S400x128 := Rect.unit (s := S400x128) ![0, 0] S400x128.size inb_S400x128_S400x128_0_0
/-- The rectangle of the body's store into the scratch: the whole scratch. -/
abbrev rScr : Rect S10000x128 := Rect.unit (s := S10000x128) ![0, 0] S10000x128.size inb_S10000x128_S10000x128_0_0

/-- One store through a whole-buffer rectangle covers the buffer. -/
theorem coverOut (v : Vec F S400x128 .f32) (y : S400x128.Idx) :
    ∃ pc ∈ ([⟨rOut, v⟩] : List (View.Piece (Elt F) S400x128 .f32)), y ∈ pc.1.set :=
  ⟨_, List.mem_singleton_self _, View.mem_set_unit_zero off0 inb_S400x128_S400x128_0_0 y⟩
theorem coverScr (v : Vec F S10000x128 .f32) (y : S10000x128.Idx) :
    ∃ pc ∈ ([⟨rScr, v⟩] : List (View.Piece (Elt F) S10000x128 .f32)), y ∈ pc.1.set :=
  ⟨_, List.mem_singleton_self _, View.mem_set_unit_zero off0 inb_S10000x128_S10000x128_0_0 y⟩

set_option maxHeartbeats 4000000 in
/-- THE FIRST POINT. Features, weights, bias row and strip are held at given contents, the output block and the
    scratch at anything; the body ends with the four inputs as they were, the scratch at the product of the feature
    block and the weight block, and the output block at the layer's value of the strip, that product and the bias row. -/
theorem sound_first (c : Dev nD) (i : grid1.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : isFirst i) (x0 : Vec F S10000x128 .f32) (x1 : Vec F S128x128 .f32) (x2 : Vec F S1x128 .f32) (x3 : Vec F S400x10000 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k1_pay2 x3 (k1_pay1 x0 x1) x2)
            ∗ owns (c : Thread nD τ) arg6 fullShare (k1_pay1 x0 x1)) -∗ K ⟨⟩))
      ⊢ wp frame (wpE (defs₀ (F := F)) Variants.none c none) E
          (cc1__layer_body i arg1 harg1 arg2 harg2 arg3 harg3 arg4 harg4 arg5 harg5 arg6 harg6) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0, View.ld_unit_zero (S := S128x128) off0,
      View.ld_unit_zero (S := S1x128) off0, View.ld_unit_zero (S := S400x10000) off0]
    exact congrArg (fun z => k1_pay2 _ z _)
      (View.readCov_unit_zero (S := S10000x128) arg6.view off0 inb_S10000x128_S10000x128_0_0 _)
  iexists _; isplitr
  swap; · iexact H6
  ipureintro
  refine (View.read_writes_eq_canon _ _ _ (coverScr _)).trans ?_
  refine (View.canon_unit_zero off0 _ _).trans ?_
  sl_unfold_words
  simp only [View.readAt_eq_ld, View.ld_unit_zero (S := S10000x128) off0, View.ld_unit_zero (S := S128x128) off0]

set_option maxHeartbeats 4000000 in
/-- A LATER POINT. The scratch holds given contents `z`; the body skips the branch, reads the scratch, and ends with
    the inputs and the scratch as they were and the output block at the layer's value of the strip, `z` and the bias row. -/
theorem sound_later (c : Dev nD) (i : grid1.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : ¬ isFirst i) (x0 : Vec F S10000x128 .f32) (x1 : Vec F S128x128 .f32) (x2 : Vec F S1x128 .f32) (x3 : Vec F S400x10000 .f32) (z : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare z
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k1_pay2 x3 z x2)
            ∗ owns (c : Thread nD τ) arg6 fullShare z) -∗ K ⟨⟩))
      ⊢ wp frame (wpE (defs₀ (F := F)) Variants.none c none) E
          (cc1__layer_body i arg1 harg1 arg2 harg2 arg3 harg3 arg4 harg4 arg5 harg5 arg6 harg6) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0,
      View.ld_unit_zero (S := S1x128) off0, View.ld_unit_zero (S := S400x10000) off0]
  iexists _; isplitr; · ipureintro; rfl
  iexact H6

end Cert.Kernel.Layer1

end
-- ==== Proof.K.Data1.lean ====
/-
  The second region's proof data. The region's five windows are the whole feature matrix, the whole weight matrix,
  the bias row (one block each, the same at every grid point), the adjacency matrix cut into 25 strips of 400
  rows, and the result cut the same way. After the body at point t the four input buffers hold their blocks, and
  the output buffer holds the layer's value on strip t: the strip times Z, plus the bias row, clamped at zero,
  where Z = features x weights is what the first point stored in the scratch. Between points the region keeps
  the scratch: before the first point at anything, after any point at Z.
-/
import proofs.«127892_g13743895347428_cont_sun_m_1394_3_alg».proof.Proof.Gen.Kernel.Launch
import proofs.«127892_g13743895347428_cont_sun_m_1394_3_alg».proof.Proof.Gen.Kernel.Skeleton
import proofs.«127892_g13743895347428_cont_sun_m_1394_3_alg».proof.Proof.Gen.Kernel.Points
import proofs.«127892_g13743895347428_cont_sun_m_1394_3_alg».proof.Proof.K.Body1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev t₀ : Fin cfg1.N := ⟨0, by decide⟩

/-- Z: the product of the whole feature block and the whole weight block — what the first point leaves in the scratch. -/
def zval (c : Dev nD) : Vec F S10000x128 .f32 := k1_pay1 (iblk V c 0 t₀) (iblk V c 1 t₀)

/-- The layer's value on strip `t`. -/
def outAt (c : Dev nD) (t : Fin cfg1.N) : Vec F S400x128 .f32 := k1_pay2 (iblk V c 3 t) (zval V c) (iblk V c 2 t)

/-- The scratch as a memref: a whole scoped buffer of the region's own. -/
abbrev scM : Memref sig .tc .vmem S10000x128 .f32 := Memref.whole cc1_scratch0

/-- The core's scoped buffers that are neither a staging buffer of this region nor its scratch (the other region's
    staging buffers and scratch), each at some contents: carried unopened. -/
abbrev others (c : Dev nD) : sProp 𝕄 :=
  Pipeline.scopedRestBut (Ix := Unit) (Name := ℕ) (U := UR sig nD τ) (Lvl := ℕ) (Val := Elt F) spec1 c [cc1_scratch0]

/-- The scoped buffers no window of this region stages: the scratch at some contents, and the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others (F := F) c) := by
  rw [Pipeline.scopedRest_split_of_list spec1 c [cc1_scratch0] (by decide) (by decide)]
  simp only [scM, owns_whole]
  rfl

/-- The region's invariant before position `n`: before the first point the scoped rest at anything and the generator
    register; afterwards the same with the scratch at Z. -/
def Phi (c : Dev nD) : ℕ → sProp 𝕄
  | 0 => Pipeline.ΦA spec1 c
  | _ + 1 => iprop((owns (c : Thread nD τ) scM fullShare (zval V c) ∗ others (F := F) c) ∗ ∃ r, prngReg c r)

theorem Phi_pos (c : Dev nD) (n : ℕ) (hn : n ≠ 0) :
    Phi V c n = iprop((owns (c : Thread nD τ) scM fullShare (zval V c) ∗ others (F := F) c) ∗ ∃ r, prngReg c r) := by
  cases n with
  | zero => exact absurd rfl hn
  | succ n => rfl

/-- The proof data: the arrays as the region finds them; after the body each input's buffer at its block and the
    output's at the layer's value on the strip; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := Phi V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]

/-- Each input's current staging buffer holds its block at every point, fetched there or not: an input the body
    leaves in place keeps the block it was last fetched with, and its block index has not moved since. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

set_option maxHeartbeats 2000000 in
/-- The body at any point. The inputs' memrefs hold their blocks; whether the point is the first decides the control
    case. At the first point the invariant hands over the scratch at anything and takes it back at Z; at a later point
    it hands the scratch over at Z and takes it back unchanged. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl,
    show (dat V c).Φ t.succ = iprop((owns (c : Thread nD τ) scM fullShare (zval V c) ∗ others (F := F) c) ∗ ∃ r, prngReg c r) from rfl,
    show (dat V c).Φ t.castSucc = Phi V c t.val from rfl,
    after_0, after_1, after_2, after_3, after_4]
  by_cases hz : t.val = 0
  · obtain rfl : t = t₀ := Fin.ext hz
    rw [show Phi V c (t₀ : Fin cfg1.N).val = Pipeline.ΦA spec1 c from rfl]
    unfold Pipeline.ΦA; rw [scopedRest_split]
    iintro ⟨⟨⟨HS, Hoth⟩, Hg⟩, Ho, ⟨%d0, H0⟩, ⟨%d1, H1⟩, ⟨%d2, H2⟩, ⟨%d3, H3⟩, ⟨%d4, H4⟩⟩
    iapply (sound_first c (grid1.coords t₀) _ _ _ _ _ _ _ _ _ _ _ _ ((isFirst_iff t₀).mpr rfl)
      (iblk V c 0 t₀) (iblk V c 1 t₀) (iblk V c 2 t₀) (iblk V c 3 t₀) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Phi_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (sound_later c (grid1.coords t) _ _ _ _ _ _ _ _ _ _ _ _ (fun h => hz ((isFirst_iff t).mp h))
      (iblk V c 0 t) (iblk V c 1 t) (iblk V c 2 t) (iblk V c 3 t) (zval V c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W1, bigSep_W1]
  exact sound_body V c t

/-- Before the first point the invariant is the class's: what the launch hands the region. -/
theorem Phi_first (c : Dev nD) : (dat V c).Φ 0 = Pipeline.ΦA spec1 c := rfl

/-- After the last point the invariant gives the scoped rest back, the scratch's contents forgotten. -/
theorem Phi_last (c : Dev nD) : (dat V c).Φ (Fin.last cfg1.N) ⊢ Pipeline.ΦA spec1 c := by
  rw [show (dat V c).Φ (Fin.last cfg1.N) = Phi V c (Fin.last cfg1.N).val from rfl,
    Phi_pos V c _ (by rw [Fin.val_last]; have : cfg1.N = 25 := N_1; omega)]
  unfold Pipeline.ΦA; rw [scopedRest_split]
  iintro ⟨⟨HS, Hoth⟩, Hg⟩
  isplitl [HS Hoth]
  · isplitl [HS]; · iexists _; iexact HS
    iexact Hoth
  iexact Hg

end Cert.Kernel.Layer1

end
-- ==== Proof.K.Net.lean ====
/-
  The whole program's run. @main is: a stretch of host operations (the folded scales, biases and the first layer's
  scaled weights), the first layer's region, a short stretch (the second layer's scaled weights), the second
  layer's region. The contents of the core's unscoped buffers are followed from the launch through the four
  segments: a host stretch applies its operations; a region leaves each of its windows' arrays at what its
  write-backs fold to and every other buffer as it found it. Every weakly fair execution terminates, and the final
  memory holds every unscoped buffer at the last of these contents.
-/
import proofs.«127892_g13743895347428_cont_sun_m_1394_3_alg».proof.Proof.Gen.Kernel.Launch
import proofs.«127892_g13743895347428_cont_sun_m_1394_3_alg».proof.Proof.Gen.Kernel.Skeleton
import proofs.«127892_g13743895347428_cont_sun_m_1394_3_alg».proof.Proof.Gen.Kernel.Points
import proofs.«127892_g13743895347428_cont_sun_m_1394_3_alg».proof.Proof.K.Data0
import proofs.«127892_g13743895347428_cont_sun_m_1394_3_alg».proof.Proof.K.Data1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs fold to, every other buffer as entered. -/
def W2 (c : Dev nD) : Valuation τ sig (Elt F) :=
  Pipeline.withArrays spec0 c (W1 m ρ c) fun w => (Layer0.dat (V1 m ρ) c).arrAt w cfg0.N
theorem W2_arr (c : Dev nD) (w : Fin cfg0.W) :
    W2 m ρ c (Proc.devRef .tc (Pipeline.arrRef spec0 w)) = (Layer0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (Layer1.dat (V3 m ρ) c).arrAt w cfg1.N
theorem W4_arr (c : Dev nD) (w : Fin cfg1.W) :
    W4 m ρ c (Proc.devRef .tc (Pipeline.arrRef spec1 w)) = (Layer1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Layer1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- No region has a prefetched table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Layer0.dat (V1 m ρ) c
  | ⟨1, _⟩ => fun c => Layer1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered with every unscoped buffer at `W1`, left with them at `W2`. Its
    windows' arrays are split out of the unscoped buffers at entry and put back at what the write-backs leave at the
    exit; the scoped rest and the generator register go into the region's invariant and come back; nothing is owed;
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Layer0.Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    windows' arrays are split out of the unscoped buffers at entry and put back at what the write-backs leave at the
    exit; the scoped rest and the generator register go into the region's invariant and come back; nothing is owed;
    the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Layer1.Phi_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final memory holds every unscoped buffer at the contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Net

end
-- ==== Proof.K.Frame.lean ====
/-
  The frame of the program: its argument arrays end as launched. No host operation writes an argument array, and a
  region changes only its result window's array, so each argument's buffer reads back through the four segment
  boundaries to the launch memory.
-/
import proofs.«127892_g13743895347428_cont_sun_m_1394_3_alg».proof.Proof.Gen.Kernel.Launch
import proofs.«127892_g13743895347428_cont_sun_m_1394_3_alg».proof.Proof.Gen.Kernel.Skeleton
import proofs.«127892_g13743895347428_cont_sun_m_1394_3_alg».proof.Proof.Gen.Kernel.Points
import proofs.«127892_g13743895347428_cont_sun_m_1394_3_alg».proof.Proof.K.Net
import proofs.«127892_g13743895347428_cont_sun_m_1394_3_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region changes only its result array. -/
theorem W4_keep (c : Dev nD) (r : Ref sig .tc) (h : r ≠ main_v23) :
    W4 m ρ c (Proc.devRef .tc r) = W3 m ρ c (Proc.devRef .tc r) := by
  by_cases hw : ∃ w, Pipeline.arrRef spec1 w = r
  · obtain ⟨w, rfl⟩ := hw
    rw [W4_arr]
    match w with
    | ⟨0, _⟩ => exact ((Layer1.dat (V3 m ρ) c).arrAt_in 0 rfl _).trans (Layer1.A_eq (V3 m ρ) c 0)
    | ⟨1, _⟩ => exact ((Layer1.dat (V3 m ρ) c).arrAt_in 1 rfl _).trans (Layer1.A_eq (V3 m ρ) c 1)
    | ⟨2, _⟩ => exact ((Layer1.dat (V3 m ρ) c).arrAt_in 2 rfl _).trans (Layer1.A_eq (V3 m ρ) c 2)
    | ⟨3, _⟩ => exact ((Layer1.dat (V3 m ρ) c).arrAt_in 3 rfl _).trans (Layer1.A_eq (V3 m ρ) c 3)
    | ⟨4, _⟩ => exact absurd rfl h
  · exact W4_of_ne m ρ c r fun w e => hw ⟨w, e⟩

/-- The first region changes only its result array. -/
theorem W2_keep (c : Dev nD) (r : Ref sig .tc) (h : r ≠ main_v19) :
    W2 m ρ c (Proc.devRef .tc r) = W1 m ρ c (Proc.devRef .tc r) := by
  by_cases hw : ∃ w, Pipeline.arrRef spec0 w = r
  · obtain ⟨w, rfl⟩ := hw
    rw [W2_arr]
    match w with
    | ⟨0, _⟩ => exact ((Layer0.dat (V1 m ρ) c).arrAt_in 0 rfl _).trans (Layer0.A_eq (V1 m ρ) c 0)
    | ⟨1, _⟩ => exact ((Layer0.dat (V1 m ρ) c).arrAt_in 1 rfl _).trans (Layer0.A_eq (V1 m ρ) c 1)
    | ⟨2, _⟩ => exact ((Layer0.dat (V1 m ρ) c).arrAt_in 2 rfl _).trans (Layer0.A_eq (V1 m ρ) c 2)
    | ⟨3, _⟩ => exact ((Layer0.dat (V1 m ρ) c).arrAt_in 3 rfl _).trans (Layer0.A_eq (V1 m ρ) c 3)
    | ⟨4, _⟩ => exact absurd rfl h
  · exact W2_of_ne m ρ c r fun w e => hw ⟨w, e⟩

/-- A host stretch changes only the buffers its operations write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- A buffer no segment writes ends as launched. -/
theorem W4_launch (c : Dev nD) (r : Ref sig .tc) (h4 : r ≠ main_v23) (h3 : r ∉ hostOps1_W) (h2 : r ≠ main_v19) (h1 : r ∉ hostOps0_W) :
    W4 m ρ c (Proc.devRef .tc r) = m ((c : Thread nD τ).loc r) :=
  (W4_keep m ρ c r h4).trans ((W3_keep m ρ c r h3).trans ((W2_keep m ρ c r h2).trans ((W1_keep m ρ c r h1).trans rfl)))

/-- THE FRAME: every weakly fair execution terminates, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_launch m ρ c main_arg0 (by decide) (by decide) (by decide) (by decide)),
    (h c _ (mem_uc main_arg1 (by decide))).trans (W4_launch m ρ c main_arg1 (by decide) (by decide) (by decide) (by decide)),
    (h c _ (mem_uc main_arg2 (by decide))).trans (W4_launch m ρ c main_arg2 (by decide) (by decide) (by decide) (by decide)),
    (h c _ (mem_uc main_arg3 (by decide))).trans (W4_launch m ρ c main_arg3 (by decide) (by decide) (by decide) (by decide)),
    (h c _ (mem_uc main_arg4 (by decide))).trans (W4_launch m ρ c main_arg4 (by decide) (by decide) (by decide) (by decide)),
    (h c _ (mem_uc main_arg5 (by decide))).trans (W4_launch m ρ c main_arg5 (by decide) (by decide) (by decide) (by decide)),
    (h c _ (mem_uc main_arg6 (by decide))).trans (W4_launch m ρ c main_arg6 (by decide) (by decide) (by decide) (by decide)),
    (h c _ (mem_uc main_arg7 (by decide))).trans (W4_launch m ρ c main_arg7 (by decide) (by decide) (by decide) (by decide)),
    (h c _ (mem_uc main_arg8 (by decide))).trans (W4_launch m ρ c main_arg8 (by decide) (by decide) (by decide) (by decide)),
    (h c _ (mem_uc main_arg9 (by decide))).trans (W4_launch m ρ c main_arg9 (by decide) (by decide) (by decide) (by decide)),
    (h c _ (mem_uc main_arg10 (by decide))).trans (W4_launch m ρ c main_arg10 (by decide) (by decide) (by decide) (by decide)),
    (h c _ (mem_uc main_arg11 (by decide))).trans (W4_launch m ρ c main_arg11 (by decide) (by decide) (by decide) (by decide)),
    (h c _ (mem_uc main_arg12 (by decide))).trans (W4_launch m ρ c main_arg12 (by decide) (by decide) (by decide) (by decide)),
    (h c _ (mem_uc main_arg13 (by decide))).trans (W4_launch m ρ c main_arg13 (by decide) (by decide) (by decide) (by decide))⟩)
    (run m ρ)

end Cert.Kernel.Net

end
-- ==== Proof.KI.Body0.lean ====
/-
  One layer's kernel body, first region. At every grid point the body multiplies the point's strip of the
  adjacency matrix (400 rows, all 10000 columns) by a 10000 x 128 matrix Z kept in a scratch buffer, adds the
  bias row and clamps at zero. Z itself is the product of the whole feature matrix with the whole (scaled)
  weight matrix; the body computes it only at the first grid point, storing it over the whole scratch, and at
  every later point reads the scratch as the first point left it. So the body has two control cases, told apart
  by whether the point's coordinate is zero. Every load and store goes through a whole buffer, so a load reads the
  buffer's contents and a store replaces them: after the first point the scratch holds Z and the output block the
  layer's value computed from the strip, Z and the bias row; after a later point the scratch is unchanged and the
  output block is the layer's value computed from the strip, the scratch's contents and the bias row.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinate: the coordinate is zero. -/
abbrev isFirst (i : grid0.Coords) : Prop :=
  (Scalar.cmpi .ne (Scalar.extui (Scalar.cmpi .eq (BitVec.ofNat 32 (i 0).val) 0#32)) 0#32) = 1#1

/-- It holds at the first of the 25 points and at no other. -/
theorem isFirst_iff : ∀ t : Fin cfg0.N, isFirst (grid0.coords t) ↔ t.val = 0 :=
  (by decide +kernel : ∀ t : Fin grid0.N, isFirst (grid0.coords t) ↔ t.val = 0)

/-- The offsets of every access of the body are zero. -/
theorem off0 : (![0, 0] : Fin 2 → Nat) = fun _ => 0 := funext fun a => by
  match a with
  | ⟨0, _⟩ => rfl
  | ⟨1, _⟩ => rfl

/-- The rectangle of the body's store into the output block: the whole block. -/
abbrev rOut : Rect S400x128 := Rect.unit (s := S400x128) ![0, 0] S400x128.size inb_S400x128_S400x128_0_0
/-- The rectangle of the body's store into the scratch: the whole scratch. -/
abbrev rScr : Rect S10000x128 := Rect.unit (s := S10000x128) ![0, 0] S10000x128.size inb_S10000x128_S10000x128_0_0

/-- One store through a whole-buffer rectangle covers the buffer. -/
theorem coverOut (v : Vec F S400x128 .f32) (y : S400x128.Idx) :
    ∃ pc ∈ ([⟨rOut, v⟩] : List (View.Piece (Elt F) S400x128 .f32)), y ∈ pc.1.set :=
  ⟨_, List.mem_singleton_self _, View.mem_set_unit_zero off0 inb_S400x128_S400x128_0_0 y⟩
theorem coverScr (v : Vec F S10000x128 .f32) (y : S10000x128.Idx) :
    ∃ pc ∈ ([⟨rScr, v⟩] : List (View.Piece (Elt F) S10000x128 .f32)), y ∈ pc.1.set :=
  ⟨_, List.mem_singleton_self _, View.mem_set_unit_zero off0 inb_S10000x128_S10000x128_0_0 y⟩

set_option maxHeartbeats 4000000 in
/-- THE FIRST POINT. Features, weights, bias row and strip are held at given contents, the output block and the
    scratch at anything; the body ends with the four inputs as they were, the scratch at the product of the feature
    block and the weight block, and the output block at the layer's value of the strip, that product and the bias row. -/
theorem sound_first (c : Dev nD) (i : grid0.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : isFirst i) (x0 : Vec F S10000x128 .f32) (x1 : Vec F S128x128 .f32) (x2 : Vec F S1x128 .f32) (x3 : Vec F S400x10000 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay2 x3 (k0_pay1 x0 x1) x2)
            ∗ owns (c : Thread nD τ) arg6 fullShare (k0_pay1 x0 x1)) -∗ K ⟨⟩))
      ⊢ wp frame (wpE (defs₀ (F := F)) Variants.none c none) E
          (cc0__layer_body i arg1 harg1 arg2 harg2 arg3 harg3 arg4 harg4 arg5 harg5 arg6 harg6) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0, View.ld_unit_zero (S := S128x128) off0,
      View.ld_unit_zero (S := S1x128) off0, View.ld_unit_zero (S := S400x10000) off0]
    exact congrArg (fun z => k0_pay2 _ z _)
      (View.readCov_unit_zero (S := S10000x128) arg6.view off0 inb_S10000x128_S10000x128_0_0 _)
  iexists _; isplitr
  swap; · iexact H6
  ipureintro
  refine (View.read_writes_eq_canon _ _ _ (coverScr _)).trans ?_
  refine (View.canon_unit_zero off0 _ _).trans ?_
  sl_unfold_words
  simp only [View.readAt_eq_ld, View.ld_unit_zero (S := S10000x128) off0, View.ld_unit_zero (S := S128x128) off0]

set_option maxHeartbeats 4000000 in
/-- A LATER POINT. The scratch holds given contents `z`; the body skips the branch, reads the scratch, and ends with
    the inputs and the scratch as they were and the output block at the layer's value of the strip, `z` and the bias row. -/
theorem sound_later (c : Dev nD) (i : grid0.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : ¬ isFirst i) (x0 : Vec F S10000x128 .f32) (x1 : Vec F S128x128 .f32) (x2 : Vec F S1x128 .f32) (x3 : Vec F S400x10000 .f32) (z : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare z
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay2 x3 z x2)
            ∗ owns (c : Thread nD τ) arg6 fullShare z) -∗ K ⟨⟩))
      ⊢ wp frame (wpE (defs₀ (F := F)) Variants.none c none) E
          (cc0__layer_body i arg1 harg1 arg2 harg2 arg3 harg3 arg4 harg4 arg5 harg5 arg6 harg6) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0,
      View.ld_unit_zero (S := S1x128) off0, View.ld_unit_zero (S := S400x10000) off0]
  iexists _; isplitr; · ipureintro; rfl
  iexact H6

end Cert.KernelIdeal.Layer0

end
-- ==== Proof.KI.Data0.lean ====
/-
  The first region's proof data. The region's five windows are the whole feature matrix, the whole weight matrix,
  the bias row (one block each, the same at every grid point), the adjacency matrix cut into 25 strips of 400
  rows, and the result cut the same way. After the body at point t the four input buffers hold their blocks, and
  the output buffer holds the layer's value on strip t: the strip times Z, plus the bias row, clamped at zero,
  where Z = features x weights is what the first point stored in the scratch. Between points the region keeps
  the scratch: before the first point at anything, after any point at Z.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import proofs.«127892_g13743895347428_cont_sun_m_1394_3_alg».proof.Proof.KI.Body0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t₀ : Fin cfg0.N := ⟨0, by decide⟩

/-- Z: the product of the whole feature block and the whole weight block — what the first point leaves in the scratch. -/
def zval (c : Dev nD) : Vec F S10000x128 .f32 := k0_pay1 (iblk V c 0 t₀) (iblk V c 1 t₀)

/-- The layer's value on strip `t`. -/
def outAt (c : Dev nD) (t : Fin cfg0.N) : Vec F S400x128 .f32 := k0_pay2 (iblk V c 3 t) (zval V c) (iblk V c 2 t)

/-- The scratch as a memref: a whole scoped buffer of the region's own. -/
abbrev scM : Memref sig .tc .vmem S10000x128 .f32 := Memref.whole cc0_scratch0

/-- The core's scoped buffers that are neither a staging buffer of this region nor its scratch (the other region's
    staging buffers and scratch), each at some contents: carried unopened. -/
abbrev others (c : Dev nD) : sProp 𝕄 :=
  Pipeline.scopedRestBut (Ix := Unit) (Name := ℕ) (U := UR sig nD τ) (Lvl := ℕ) (Val := Elt F) spec0 c [cc0_scratch0]

/-- The scoped buffers no window of this region stages: the scratch at some contents, and the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others (F := F) c) := by
  rw [Pipeline.scopedRest_split_of_list spec0 c [cc0_scratch0] (by decide) (by decide)]
  simp only [scM, owns_whole]
  rfl

/-- The region's invariant before position `n`: before the first point the scoped rest at anything and the generator
    register; afterwards the same with the scratch at Z. -/
def Phi (c : Dev nD) : ℕ → sProp 𝕄
  | 0 => Pipeline.ΦA spec0 c
  | _ + 1 => iprop((owns (c : Thread nD τ) scM fullShare (zval V c) ∗ others (F := F) c) ∗ ∃ r, prngReg c r)

theorem Phi_pos (c : Dev nD) (n : ℕ) (hn : n ≠ 0) :
    Phi V c n = iprop((owns (c : Thread nD τ) scM fullShare (zval V c) ∗ others (F := F) c) ∗ ∃ r, prngReg c r) := by
  cases n with
  | zero => exact absurd rfl hn
  | succ n => rfl

/-- The proof data: the arrays as the region finds them; after the body each input's buffer at its block and the
    output's at the layer's value on the strip; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := Phi V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAt V c t := by dsimp only [dat]

/-- Each input's current staging buffer holds its block at every point, fetched there or not: an input the body
    leaves in place keeps the block it was last fetched with, and its block index has not moved since. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point. The inputs' memrefs hold their blocks; whether the point is the first decides the control
    case. At the first point the invariant hands over the scratch at anything and takes it back at Z; at a later point
    it hands the scratch over at Z and takes it back unchanged. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = iprop((owns (c : Thread nD τ) scM fullShare (zval V c) ∗ others (F := F) c) ∗ ∃ r, prngReg c r) from rfl,
    show (dat V c).Φ t.castSucc = Phi V c t.val from rfl,
    after_0, after_1, after_2, after_3, after_4]
  by_cases hz : t.val = 0
  · obtain rfl : t = t₀ := Fin.ext hz
    rw [show Phi V c (t₀ : Fin cfg0.N).val = Pipeline.ΦA spec0 c from rfl]
    unfold Pipeline.ΦA; rw [scopedRest_split]
    iintro ⟨⟨⟨HS, Hoth⟩, Hg⟩, Ho, ⟨%d0, H0⟩, ⟨%d1, H1⟩, ⟨%d2, H2⟩, ⟨%d3, H3⟩, ⟨%d4, H4⟩⟩
    iapply (sound_first c (grid0.coords t₀) _ _ _ _ _ _ _ _ _ _ _ _ ((isFirst_iff t₀).mpr rfl)
      (iblk V c 0 t₀) (iblk V c 1 t₀) (iblk V c 2 t₀) (iblk V c 3 t₀) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Phi_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (sound_later c (grid0.coords t) _ _ _ _ _ _ _ _ _ _ _ _ (fun h => hz ((isFirst_iff t).mp h))
      (iblk V c 0 t) (iblk V c 1 t) (iblk V c 2 t) (iblk V c 3 t) (zval V c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W0, bigSep_W0]
  exact sound_body V c t

/-- Before the first point the invariant is the class's: what the launch hands the region. -/
theorem Phi_first (c : Dev nD) : (dat V c).Φ 0 = Pipeline.ΦA spec0 c := rfl

/-- After the last point the invariant gives the scoped rest back, the scratch's contents forgotten. -/
theorem Phi_last (c : Dev nD) : (dat V c).Φ (Fin.last cfg0.N) ⊢ Pipeline.ΦA spec0 c := by
  rw [show (dat V c).Φ (Fin.last cfg0.N) = Phi V c (Fin.last cfg0.N).val from rfl,
    Phi_pos V c _ (by rw [Fin.val_last]; have : cfg0.N = 25 := N_0; omega)]
  unfold Pipeline.ΦA; rw [scopedRest_split]
  iintro ⟨⟨HS, Hoth⟩, Hg⟩
  isplitl [HS Hoth]
  · isplitl [HS]; · iexists _; iexact HS
    iexact Hoth
  iexact Hg

end Cert.KernelIdeal.Layer0

end
-- ==== Proof.KI.Body1.lean ====
/-
  One layer's kernel body, second region. At every grid point the body multiplies the point's strip of the
  adjacency matrix (400 rows, all 10000 columns) by a 10000 x 128 matrix Z kept in a scratch buffer, adds the
  bias row and clamps at zero. Z itself is the product of the whole feature matrix with the whole (scaled)
  weight matrix; the body computes it only at the first grid point, storing it over the whole scratch, and at
  every later point reads the scratch as the first point left it. So the body has two control cases, told apart
  by whether the point's coordinate is zero. Every load and store goes through a whole buffer, so a load reads the
  buffer's contents and a store replaces them: after the first point the scratch holds Z and the output block the
  layer's value computed from the strip, Z and the bias row; after a later point the scratch is unchanged and the
  output block is the layer's value computed from the strip, the scratch's contents and the bias row.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinate: the coordinate is zero. -/
abbrev isFirst (i : grid1.Coords) : Prop :=
  (Scalar.cmpi .ne (Scalar.extui (Scalar.cmpi .eq (BitVec.ofNat 32 (i 0).val) 0#32)) 0#32) = 1#1

/-- It holds at the first of the 25 points and at no other. -/
theorem isFirst_iff : ∀ t : Fin cfg1.N, isFirst (grid1.coords t) ↔ t.val = 0 :=
  (by decide +kernel : ∀ t : Fin grid1.N, isFirst (grid1.coords t) ↔ t.val = 0)

/-- The offsets of every access of the body are zero. -/
theorem off0 : (![0, 0] : Fin 2 → Nat) = fun _ => 0 := funext fun a => by
  match a with
  | ⟨0, _⟩ => rfl
  | ⟨1, _⟩ => rfl

/-- The rectangle of the body's store into the output block: the whole block. -/
abbrev rOut : Rect S400x128 := Rect.unit (s := S400x128) ![0, 0] S400x128.size inb_S400x128_S400x128_0_0
/-- The rectangle of the body's store into the scratch: the whole scratch. -/
abbrev rScr : Rect S10000x128 := Rect.unit (s := S10000x128) ![0, 0] S10000x128.size inb_S10000x128_S10000x128_0_0

/-- One store through a whole-buffer rectangle covers the buffer. -/
theorem coverOut (v : Vec F S400x128 .f32) (y : S400x128.Idx) :
    ∃ pc ∈ ([⟨rOut, v⟩] : List (View.Piece (Elt F) S400x128 .f32)), y ∈ pc.1.set :=
  ⟨_, List.mem_singleton_self _, View.mem_set_unit_zero off0 inb_S400x128_S400x128_0_0 y⟩
theorem coverScr (v : Vec F S10000x128 .f32) (y : S10000x128.Idx) :
    ∃ pc ∈ ([⟨rScr, v⟩] : List (View.Piece (Elt F) S10000x128 .f32)), y ∈ pc.1.set :=
  ⟨_, List.mem_singleton_self _, View.mem_set_unit_zero off0 inb_S10000x128_S10000x128_0_0 y⟩

set_option maxHeartbeats 4000000 in
/-- THE FIRST POINT. Features, weights, bias row and strip are held at given contents, the output block and the
    scratch at anything; the body ends with the four inputs as they were, the scratch at the product of the feature
    block and the weight block, and the output block at the layer's value of the strip, that product and the bias row. -/
theorem sound_first (c : Dev nD) (i : grid1.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : isFirst i) (x0 : Vec F S10000x128 .f32) (x1 : Vec F S128x128 .f32) (x2 : Vec F S1x128 .f32) (x3 : Vec F S400x10000 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k1_pay2 x3 (k1_pay1 x0 x1) x2)
            ∗ owns (c : Thread nD τ) arg6 fullShare (k1_pay1 x0 x1)) -∗ K ⟨⟩))
      ⊢ wp frame (wpE (defs₀ (F := F)) Variants.none c none) E
          (cc1__layer_body i arg1 harg1 arg2 harg2 arg3 harg3 arg4 harg4 arg5 harg5 arg6 harg6) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0, View.ld_unit_zero (S := S128x128) off0,
      View.ld_unit_zero (S := S1x128) off0, View.ld_unit_zero (S := S400x10000) off0]
    exact congrArg (fun z => k1_pay2 _ z _)
      (View.readCov_unit_zero (S := S10000x128) arg6.view off0 inb_S10000x128_S10000x128_0_0 _)
  iexists _; isplitr
  swap; · iexact H6
  ipureintro
  refine (View.read_writes_eq_canon _ _ _ (coverScr _)).trans ?_
  refine (View.canon_unit_zero off0 _ _).trans ?_
  sl_unfold_words
  simp only [View.readAt_eq_ld, View.ld_unit_zero (S := S10000x128) off0, View.ld_unit_zero (S := S128x128) off0]

set_option maxHeartbeats 4000000 in
/-- A LATER POINT. The scratch holds given contents `z`; the body skips the branch, reads the scratch, and ends with
    the inputs and the scratch as they were and the output block at the layer's value of the strip, `z` and the bias row. -/
theorem sound_later (c : Dev nD) (i : grid1.Coords) (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .f32) (harg6 : arg6.IsWhole)
    (hc : ¬ isFirst i) (x0 : Vec F S10000x128 .f32) (x1 : Vec F S128x128 .f32) (x2 : Vec F S1x128 .f32) (x3 : Vec F S400x10000 .f32) (z : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare z
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k1_pay2 x3 z x2)
            ∗ owns (c : Thread nD τ) arg6 fullShare z) -∗ K ⟨⟩))
      ⊢ wp frame (wpE (defs₀ (F := F)) Variants.none c none) E
          (cc1__layer_body i arg1 harg1 arg2 harg2 arg3 harg3 arg4 harg4 arg5 harg5 arg6 harg6) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H5]
  · iexists _; isplitr
    swap; · iexact H5
    ipureintro
    refine (View.read_writes_eq_canon _ _ _ (coverOut _)).trans ?_
    refine (View.canon_unit_zero off0 _ _).trans ?_
    sl_unfold_words
    simp only [View.readAt_eq_ld, View.ld_unit_zero (S := S10000x128) off0,
      View.ld_unit_zero (S := S1x128) off0, View.ld_unit_zero (S := S400x10000) off0]
  iexists _; isplitr; · ipureintro; rfl
  iexact H6

end Cert.KernelIdeal.Layer1

end
-- ==== Proof.KI.Data1.lean ====
/-
  The second region's proof data. The region's five windows are the whole feature matrix, the whole weight matrix,
  the bias row (one block each, the same at every grid point), the adjacency matrix cut into 25 strips of 400
  rows, and the result cut the same way. After the body at point t the four input buffers hold their blocks, and
  the output buffer holds the layer's value on strip t: the strip times Z, plus the bias row, clamped at zero,
  where Z = features x weights is what the first point stored in the scratch. Between points the region keeps
  the scratch: before the first point at anything, after any point at Z.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import proofs.«127892_g13743895347428_cont_sun_m_1394_3_alg».proof.Proof.KI.Body1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev t₀ : Fin cfg1.N := ⟨0, by decide⟩

/-- Z: the product of the whole feature block and the whole weight block — what the first point leaves in the scratch. -/
def zval (c : Dev nD) : Vec F S10000x128 .f32 := k1_pay1 (iblk V c 0 t₀) (iblk V c 1 t₀)

/-- The layer's value on strip `t`. -/
def outAt (c : Dev nD) (t : Fin cfg1.N) : Vec F S400x128 .f32 := k1_pay2 (iblk V c 3 t) (zval V c) (iblk V c 2 t)

/-- The scratch as a memref: a whole scoped buffer of the region's own. -/
abbrev scM : Memref sig .tc .vmem S10000x128 .f32 := Memref.whole cc1_scratch0

/-- The core's scoped buffers that are neither a staging buffer of this region nor its scratch (the other region's
    staging buffers and scratch), each at some contents: carried unopened. -/
abbrev others (c : Dev nD) : sProp 𝕄 :=
  Pipeline.scopedRestBut (Ix := Unit) (Name := ℕ) (U := UR sig nD τ) (Lvl := ℕ) (Val := Elt F) spec1 c [cc1_scratch0]

/-- The scoped buffers no window of this region stages: the scratch at some contents, and the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ others (F := F) c) := by
  rw [Pipeline.scopedRest_split_of_list spec1 c [cc1_scratch0] (by decide) (by decide)]
  simp only [scM, owns_whole]
  rfl

/-- The region's invariant before position `n`: before the first point the scoped rest at anything and the generator
    register; afterwards the same with the scratch at Z. -/
def Phi (c : Dev nD) : ℕ → sProp 𝕄
  | 0 => Pipeline.ΦA spec1 c
  | _ + 1 => iprop((owns (c : Thread nD τ) scM fullShare (zval V c) ∗ others (F := F) c) ∗ ∃ r, prngReg c r)

theorem Phi_pos (c : Dev nD) (n : ℕ) (hn : n ≠ 0) :
    Phi V c n = iprop((owns (c : Thread nD τ) scM fullShare (zval V c) ∗ others (F := F) c) ∗ ∃ r, prngReg c r) := by
  cases n with
  | zero => exact absurd rfl hn
  | succ n => rfl

/-- The proof data: the arrays as the region finds them; after the body each input's buffer at its block and the
    output's at the layer's value on the strip; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := Phi V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]

/-- Each input's current staging buffer holds its block at every point, fetched there or not: an input the body
    leaves in place keeps the block it was last fetched with, and its block index has not moved since. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

set_option maxHeartbeats 2000000 in
/-- The body at any point. The inputs' memrefs hold their blocks; whether the point is the first decides the control
    case. At the first point the invariant hands over the scratch at anything and takes it back at Z; at a later point
    it hands the scratch over at Z and takes it back unchanged. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl,
    show (dat V c).Φ t.succ = iprop((owns (c : Thread nD τ) scM fullShare (zval V c) ∗ others (F := F) c) ∗ ∃ r, prngReg c r) from rfl,
    show (dat V c).Φ t.castSucc = Phi V c t.val from rfl,
    after_0, after_1, after_2, after_3, after_4]
  by_cases hz : t.val = 0
  · obtain rfl : t = t₀ := Fin.ext hz
    rw [show Phi V c (t₀ : Fin cfg1.N).val = Pipeline.ΦA spec1 c from rfl]
    unfold Pipeline.ΦA; rw [scopedRest_split]
    iintro ⟨⟨⟨HS, Hoth⟩, Hg⟩, Ho, ⟨%d0, H0⟩, ⟨%d1, H1⟩, ⟨%d2, H2⟩, ⟨%d3, H3⟩, ⟨%d4, H4⟩⟩
    iapply (sound_first c (grid1.coords t₀) _ _ _ _ _ _ _ _ _ _ _ _ ((isFirst_iff t₀).mpr rfl)
      (iblk V c 0 t₀) (iblk V c 1 t₀) (iblk V c 2 t₀) (iblk V c 3 t₀) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Phi_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (sound_later c (grid1.coords t) _ _ _ _ _ _ _ _ _ _ _ _ (fun h => hz ((isFirst_iff t).mp h))
      (iblk V c 0 t) (iblk V c 1 t) (iblk V c 2 t) (iblk V c 3 t) (zval V c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W1, bigSep_W1]
  exact sound_body V c t

/-- Before the first point the invariant is the class's: what the launch hands the region. -/
theorem Phi_first (c : Dev nD) : (dat V c).Φ 0 = Pipeline.ΦA spec1 c := rfl

/-- After the last point the invariant gives the scoped rest back, the scratch's contents forgotten. -/
theorem Phi_last (c : Dev nD) : (dat V c).Φ (Fin.last cfg1.N) ⊢ Pipeline.ΦA spec1 c := by
  rw [show (dat V c).Φ (Fin.last cfg1.N) = Phi V c (Fin.last cfg1.N).val from rfl,
    Phi_pos V c _ (by rw [Fin.val_last]; have : cfg1.N = 25 := N_1; omega)]
  unfold Pipeline.ΦA; rw [scopedRest_split]
  iintro ⟨⟨HS, Hoth⟩, Hg⟩
  isplitl [HS Hoth]
  · isplitl [HS]; · iexists _; iexact HS
    iexact Hoth
  iexact Hg

end Cert.KernelIdeal.Layer1

end
-- ==== Proof.KI.Net.lean ====
/-
  The whole program's run. @main is: a stretch of host operations (the folded scales, biases and the first layer's
  scaled weights), the first layer's region, a short stretch (the second layer's scaled weights), the second
  layer's region. The contents of the core's unscoped buffers are followed from the launch through the four
  segments: a host stretch applies its operations; a region leaves each of its windows' arrays at what its
  write-backs fold to and every other buffer as it found it. Every weakly fair execution terminates, and the final
  memory holds every unscoped buffer at the last of these contents.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import proofs.«127892_g13743895347428_cont_sun_m_1394_3_alg».proof.Proof.KI.Data0
import proofs.«127892_g13743895347428_cont_sun_m_1394_3_alg».proof.Proof.KI.Data1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs fold to, every other buffer as entered. -/
def W2 (c : Dev nD) : Valuation τ sig (Elt F) :=
  Pipeline.withArrays spec0 c (W1 m ρ c) fun w => (Layer0.dat (V1 m ρ) c).arrAt w cfg0.N
theorem W2_arr (c : Dev nD) (w : Fin cfg0.W) :
    W2 m ρ c (Proc.devRef .tc (Pipeline.arrRef spec0 w)) = (Layer0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (Layer1.dat (V3 m ρ) c).arrAt w cfg1.N
theorem W4_arr (c : Dev nD) (w : Fin cfg1.W) :
    W4 m ρ c (Proc.devRef .tc (Pipeline.arrRef spec1 w)) = (Layer1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Layer1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- No region has a prefetched table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => Layer0.dat (V1 m ρ) c
  | ⟨1, _⟩ => fun c => Layer1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered with every unscoped buffer at `W1`, left with them at `W2`. Its
    windows' arrays are split out of the unscoped buffers at entry and put back at what the write-backs leave at the
    exit; the scoped rest and the generator register go into the region's invariant and come back; nothing is owed;
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Layer0.Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    windows' arrays are split out of the unscoped buffers at entry and put back at what the write-backs leave at the
    exit; the scoped rest and the generator register go into the region's invariant and come back; nothing is owed;
    the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Layer1.Phi_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final memory holds every unscoped buffer at the contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Net

end
-- ==== Proof.KI.Frame.lean ====
/-
  The frame of the program: its argument arrays end as launched. No host operation writes an argument array, and a
  region changes only its result window's array, so each argument's buffer reads back through the four segment
  boundaries to the launch memory.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import proofs.«127892_g13743895347428_cont_sun_m_1394_3_alg».proof.Proof.KI.Net
import proofs.«127892_g13743895347428_cont_sun_m_1394_3_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region changes only its result array. -/
theorem W4_keep (c : Dev nD) (r : Ref sig .tc) (h : r ≠ main_v23) :
    W4 m ρ c (Proc.devRef .tc r) = W3 m ρ c (Proc.devRef .tc r) := by
  by_cases hw : ∃ w, Pipeline.arrRef spec1 w = r
  · obtain ⟨w, rfl⟩ := hw
    rw [W4_arr]
    match w with
    | ⟨0, _⟩ => exact ((Layer1.dat (V3 m ρ) c).arrAt_in 0 rfl _).trans (Layer1.A_eq (V3 m ρ) c 0)
    | ⟨1, _⟩ => exact ((Layer1.dat (V3 m ρ) c).arrAt_in 1 rfl _).trans (Layer1.A_eq (V3 m ρ) c 1)
    | ⟨2, _⟩ => exact ((Layer1.dat (V3 m ρ) c).arrAt_in 2 rfl _).trans (Layer1.A_eq (V3 m ρ) c 2)
    | ⟨3, _⟩ => exact ((Layer1.dat (V3 m ρ) c).arrAt_in 3 rfl _).trans (Layer1.A_eq (V3 m ρ) c 3)
    | ⟨4, _⟩ => exact absurd rfl h
  · exact W4_of_ne m ρ c r fun w e => hw ⟨w, e⟩

/-- The first region changes only its result array. -/
theorem W2_keep (c : Dev nD) (r : Ref sig .tc) (h : r ≠ main_v19) :
    W2 m ρ c (Proc.devRef .tc r) = W1 m ρ c (Proc.devRef .tc r) := by
  by_cases hw : ∃ w, Pipeline.arrRef spec0 w = r
  · obtain ⟨w, rfl⟩ := hw
    rw [W2_arr]
    match w with
    | ⟨0, _⟩ => exact ((Layer0.dat (V1 m ρ) c).arrAt_in 0 rfl _).trans (Layer0.A_eq (V1 m ρ) c 0)
    | ⟨1, _⟩ => exact ((Layer0.dat (V1 m ρ) c).arrAt_in 1 rfl _).trans (Layer0.A_eq (V1 m ρ) c 1)
    | ⟨2, _⟩ => exact ((Layer0.dat (V1 m ρ) c).arrAt_in 2 rfl _).trans (Layer0.A_eq (V1 m ρ) c 2)
    | ⟨3, _⟩ => exact ((Layer0.dat (V1 m ρ) c).arrAt_in 3 rfl _).trans (Layer0.A_eq (V1 m ρ) c 3)
    | ⟨4, _⟩ => exact absurd rfl h
  · exact W2_of_ne m ρ c r fun w e => hw ⟨w, e⟩

/-- A host stretch changes only the buffers its operations write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- A buffer no segment writes ends as launched. -/
theorem W4_launch (c : Dev nD) (r : Ref sig .tc) (h4 : r ≠ main_v23) (h3 : r ∉ hostOps1_W) (h2 : r ≠ main_v19) (h1 : r ∉ hostOps0_W) :
    W4 m ρ c (Proc.devRef .tc r) = m ((c : Thread nD τ).loc r) :=
  (W4_keep m ρ c r h4).trans ((W3_keep m ρ c r h3).trans ((W2_keep m ρ c r h2).trans ((W1_keep m ρ c r h1).trans rfl)))

/-- THE FRAME: every weakly fair execution terminates, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_launch m ρ c main_arg0 (by decide) (by decide) (by decide) (by decide)),
    (h c _ (mem_uc main_arg1 (by decide))).trans (W4_launch m ρ c main_arg1 (by decide) (by decide) (by decide) (by decide)),
    (h c _ (mem_uc main_arg2 (by decide))).trans (W4_launch m ρ c main_arg2 (by decide) (by decide) (by decide) (by decide)),
    (h c _ (mem_uc main_arg3 (by decide))).trans (W4_launch m ρ c main_arg3 (by decide) (by decide) (by decide) (by decide)),
    (h c _ (mem_uc main_arg4 (by decide))).trans (W4_launch m ρ c main_arg4 (by decide) (by decide) (by decide) (by decide)),
    (h c _ (mem_uc main_arg5 (by decide))).trans (W4_launch m ρ c main_arg5 (by decide) (by decide) (by decide) (by decide)),
    (h c _ (mem_uc main_arg6 (by decide))).trans (W4_launch m ρ c main_arg6 (by decide) (by decide) (by decide) (by decide)),
    (h c _ (mem_uc main_arg7 (by decide))).trans (W4_launch m ρ c main_arg7 (by decide) (by decide) (by decide) (by decide)),
    (h c _ (mem_uc main_arg8 (by decide))).trans (W4_launch m ρ c main_arg8 (by decide) (by decide) (by decide) (by decide)),
    (h c _ (mem_uc main_arg9 (by decide))).trans (W4_launch m ρ c main_arg9 (by decide) (by decide) (by decide) (by decide)),
    (h c _ (mem_uc main_arg10 (by decide))).trans (W4_launch m ρ c main_arg10 (by decide) (by decide) (by decide) (by decide)),
    (h c _ (mem_uc main_arg11 (by decide))).trans (W4_launch m ρ c main_arg11 (by decide) (by decide) (by decide) (by decide)),
    (h c _ (mem_uc main_arg12 (by decide))).trans (W4_launch m ρ c main_arg12 (by decide) (by decide) (by decide) (by decide)),
    (h c _ (mem_uc main_arg13 (by decide))).trans (W4_launch m ρ c main_arg13 (by decide) (by decide) (by decide) (by decide))⟩)
    (run m ρ)

end Cert.KernelIdeal.Net

end
-- ==== Proof.KI.Payload.lean ====
/-
  The two values a layer's kernel body stores, read at an index.

  The first is a matrix product into a zero accumulator, between identity reshapes: at (n, q) it is the sum over k of
  the left operand's row n against the right operand's column q. The second is a matrix product into a zero
  accumulator, plus a one-row array broadcast over the rows, clamped below at zero: at (r, q) it is
  max (sum_n A_rn Z_nq + c_q, 0). The second body's values are the same with one more identity reshape.
-/
import proofs.«127892_g13743895347428_cont_sun_m_1394_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ### The two products' index maps, coordinate by coordinate -/

theorem lhsA_0 (i : S10000x128.Idx) (c : dot_S10000x128_S128x128_S10000x128_1_0_0_1_n_n.contr.Idx) : (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (c : dot_S10000x128_S128x128_S10000x128_1_0_0_1_n_n.contr.Idx) : (dot_S10000x128_S128x128_S10000x128_1_0_0_1_n_n.lhsIdx i c 1).val = (c ⟨0, by decide⟩).val :=
  dot_S10000x128_S128x128_S10000x128_1_0_0_1_n_n.lhsIdx_val_of_single rfl i c
theorem rhsA_0 (i : S10000x128.Idx) (c : dot_S10000x128_S128x128_S10000x128_1_0_0_1_n_n.contr.Idx) : (dot_S10000x128_S128x128_S10000x128_1_0_0_1_n_n.rhsIdx i c 0).val = (c ⟨0, by decide⟩).val :=
  dot_S10000x128_S128x128_S10000x128_1_0_0_1_n_n.rhsIdx_val_of_single rfl i c
theorem rhsA_1 (i : S10000x128.Idx) (c : dot_S10000x128_S128x128_S10000x128_1_0_0_1_n_n.contr.Idx) : (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
theorem lhsB_0 (i : S400x128.Idx) (c : dot_S400x10000_S10000x128_S400x128_1_0_0_1_n_n.contr.Idx) : (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsB_1 (i : S400x128.Idx) (c : dot_S400x10000_S10000x128_S400x128_1_0_0_1_n_n.contr.Idx) : (dot_S400x10000_S10000x128_S400x128_1_0_0_1_n_n.lhsIdx i c 1).val = (c ⟨0, by decide⟩).val :=
  dot_S400x10000_S10000x128_S400x128_1_0_0_1_n_n.lhsIdx_val_of_single rfl i c
theorem rhsB_0 (i : S400x128.Idx) (c : dot_S400x10000_S10000x128_S400x128_1_0_0_1_n_n.contr.Idx) : (dot_S400x10000_S10000x128_S400x128_1_0_0_1_n_n.rhsIdx i c 0).val = (c ⟨0, by decide⟩).val :=
  dot_S400x10000_S10000x128_S400x128_1_0_0_1_n_n.rhsIdx_val_of_single rfl i c
theorem rhsB_1 (i : S400x128.Idx) (c : dot_S400x10000_S10000x128_S400x128_1_0_0_1_n_n.contr.Idx) : (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ### The two products at an index -/

/-- The features-by-weights product into a zero accumulator, at (r, q): row r against column q. -/
theorem matmulA_apply (L : FVec Ideal S10000x128 .f32) (R : FVec Ideal S128x128 .f32) (r : Fin 10000) (q : Fin 128) :
    FloatOps.matmul dot_S10000x128_S128x128_S10000x128_1_0_0_1_n_n none L R (constant S10000x128 .f32 0x00000000#32) (ix2 r q)
      = ∑ k : Fin 128, L (ix2 r k) * R (ix2 k q) := by
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The adjacency-block-by-features product into a zero accumulator, at (r, q): row r against column q. -/
theorem matmulB_apply (L : FVec Ideal S400x10000 .f32) (R : FVec Ideal S10000x128 .f32) (r : Fin 400) (q : Fin 128) :
    FloatOps.matmul dot_S400x10000_S10000x128_S400x128_1_0_0_1_n_n none L R (constant S400x128 .f32 0x00000000#32) (ix2 r q)
      = ∑ k : Fin 10000, L (ix2 r k) * R (ix2 k q) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r q) ((contrEquiv1 dot_S400x10000_S10000x128_S400x128_1_0_0_1_n_n 10000 rfl rfl).symm k) = ix2 r k := funext fun a => Fin.ext (by
    match a with
    | ⟨0, _⟩ => exact lhsB_0 _ _
    | ⟨1, _⟩ => exact (lhsB_1 _ _).trans hk)
  have er : dot_S400x10000_S10000x128_S400x128_1_0_0_1_n_n.rhsIdx (ix2 r q) ((contrEquiv1 dot_S400x10000_S10000x128_S400x128_1_0_0_1_n_n 10000 rfl rfl).symm k) = ix2 k q := funext fun a => Fin.ext (by
    match a with
    | ⟨0, _⟩ => exact (rhsB_0 _ _).trans hk
    | ⟨1, _⟩ => exact rhsB_1 _ _)
  rw [el, er]

/-! ### The stored values at an index -/

/-- The first body's first stored value: the features-by-weights product. -/
theorem pay1_apply (X : Vec Ideal S10000x128 .f32) (W : Vec Ideal S128x128 .f32) (n : Fin 10000) (q : Fin 128) :
    k0_pay1 (F := Ideal) X W (ValueIdx.ix2 n q) = ∑ k : Fin 128, X (ValueIdx.ix2 n k) * W (ValueIdx.ix2 k q) := by
  unfold k0_pay1
  simp only [shapeCast_self]
  exact matmulA_apply X W n q

/-- The first body's second stored value: the adjacency product plus the bias row, clamped below at zero. -/
theorem pay2_apply (A : Vec Ideal S400x10000 .f32) (Z : Vec Ideal S10000x128 .f32) (cb : Vec Ideal S1x128 .f32) (r : Fin 400) (q : Fin 128) :
    k0_pay2 (F := Ideal) A Z cb (ValueIdx.ix2 r q)
      = max ((∑ n : Fin 10000, A (ValueIdx.ix2 r n) * Z (ValueIdx.ix2 n q)) + cb (ValueIdx.ix2 (0 : Fin 1) q)) 0 := by
  unfold k0_pay2
  simp only [shapeCast_self]
  rw [maximumf_apply, addf_apply, broadcast_apply]
  refine congrArg₂ max (congrArg₂ (· + ·) (matmulB_apply A Z r q) ?_) Ideal.ofBits_zero_f32
  exact broadcastTo_1b_ab_apply (a := 400) (b := 128) cb _ r q

/-- The second body's first stored value: the same product. -/
theorem pay1_apply' (X : Vec Ideal S10000x128 .f32) (W : Vec Ideal S128x128 .f32) (n : Fin 10000) (q : Fin 128) :
    k1_pay1 (F := Ideal) X W (ValueIdx.ix2 n q) = ∑ k : Fin 128, X (ValueIdx.ix2 n k) * W (ValueIdx.ix2 k q) := by
  unfold k1_pay1
  simp only [shapeCast_self]
  exact matmulA_apply X W n q

/-- The second body's second stored value: the same clamped sum. -/
theorem pay2_apply' (A : Vec Ideal S400x10000 .f32) (Z : Vec Ideal S10000x128 .f32) (cb : Vec Ideal S1x128 .f32) (r : Fin 400) (q : Fin 128) :
    k1_pay2 (F := Ideal) A Z cb (ValueIdx.ix2 r q)
      = max ((∑ n : Fin 10000, A (ValueIdx.ix2 r n) * Z (ValueIdx.ix2 n q)) + cb (ValueIdx.ix2 (0 : Fin 1) q)) 0 := by
  unfold k1_pay2
  simp only [shapeCast_self]
  rw [maximumf_apply, addf_apply, broadcast_apply]
  refine congrArg₂ max (congrArg₂ (· + ·) (matmulB_apply A Z r q) ?_) Ideal.ofBits_zero_f32
  exact broadcastTo_1b_ab_apply (a := 400) (b := 128) cb _ r q

end Cert.KernelIdeal.Payload

end
-- ==== Proof.KI.Final0.lean ====
/-
  What the first region leaves in its result array, at the exact instance. Point t writes back rows 400 t … 400 t + 399;
  the 25 blocks tile the 10000 rows, so the array ends as one function of the arrays the region was entered with: at
  row p, column q, the strip's row p times Z, plus the bias row, clamped at zero — Z being the product of the whole
  feature array and the whole weight array. The feature, weight and bias windows have one block, the whole array, at
  every point; the adjacency window's block at point t is rows 400 t … 400 t + 399, all columns.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import proofs.«127892_g13743895347428_cont_sun_m_1394_3_alg».proof.Proof.KI.Data0
import proofs.«127892_g13743895347428_cont_sun_m_1394_3_alg».proof.Proof.KI.Payload
import Idealize.ShloMosaic.Lib.ValueIdx
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

variable (V : (c : Dev nD) → (b : Ref sig .tc) → Buf (Elt Ideal) ((c : Thread nD τ).loc b))

/-- The four arrays the region reads, as it finds them: features, scaled weights, folded bias row, adjacency. -/
abbrev feat (c : Dev nD) : S10000x128.Idx → EReal := V c main_arg0
abbrev wts (c : Dev nD) : S128x128.Idx → EReal := V c main_v18
abbrev bias (c : Dev nD) : S1x128.Idx → EReal := V c main_v7
abbrev adj (c : Dev nD) : S10000x10000.Idx → EReal := V c main_arg1

/-- The printed index maps, decided over the grid: the three one-block windows stay at block (0, 0); the adjacency
    window and the result window are at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block is the whole feature array. -/
theorem iblk0_apply (c : Dev nD) (t : Fin cfg0.N) (n : Fin 10000) (k : Fin 128) :
    (iblk V c 0 t : S10000x128.Idx → EReal) (ix2 n k) = feat V c (ix2 n k) := by
  obtain ⟨e0, e1, -⟩ := idx_facts t
  show feat V c (((cfg0.win 0).blk t).view.emb (ix2 n k)) = _
  refine congrArg _ (funext fun a => Fin.ext ?_)
  match a with
  | ⟨0, _⟩ => show win0_0.index t (0 : Fin 2) * 10000 + 1 * n.val = n.val; omega
  | ⟨1, _⟩ => show win0_0.index t (1 : Fin 2) * 128 + 1 * k.val = k.val; omega

/-- The weight window's block is the whole weight array. -/
theorem iblk1_apply (c : Dev nD) (t : Fin cfg0.N) (k : Fin 128) (q : Fin 128) :
    (iblk V c 1 t : S128x128.Idx → EReal) (ix2 k q) = wts V c (ix2 k q) := by
  obtain ⟨-, -, e0, e1, -⟩ := idx_facts t
  show wts V c (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias window's block is the whole bias row. -/
theorem iblk2_apply (c : Dev nD) (t : Fin cfg0.N) (q : Fin 128) :
    (iblk V c 2 t : S1x128.Idx → EReal) (ix2 (0 : Fin 1) q) = bias V c (ix2 (0 : Fin 1) q) := by
  obtain ⟨-, -, -, -, e0, e1, -⟩ := idx_facts t
  show bias V c (((cfg0.win 2).blk t).view.emb (ix2 (0 : Fin 1) q)) = _
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- The adjacency window's block at point t is rows 400 t … 400 t + 399 of the adjacency array. -/
theorem iblk3_apply (c : Dev nD) (t : Fin cfg0.N) (r : Fin 400) (n : Fin 10000) (p : Fin 10000) (hp : p.val = t.val * 400 + r.val) :
    (iblk V c 3 t : S400x10000.Idx → EReal) (ix2 r n) = adj V c (ix2 p n) := by
  obtain ⟨-, -, -, -, -, -, e0, e1, -⟩ := idx_facts t
  show adj V c (((cfg0.win 3).blk t).view.emb (ix2 r n)) = _
  refine congrArg _ (funext fun a => Fin.ext ?_)
  match a with
  | ⟨0, _⟩ => show win0_3.index t (0 : Fin 2) * 400 + 1 * r.val = p.val; omega
  | ⟨1, _⟩ => show win0_3.index t (1 : Fin 2) * 10000 + 1 * n.val = n.val; omega

/-- Z, entry by entry: row n of the features against column q of the weights. -/
theorem zval_apply (c : Dev nD) (n : Fin 10000) (q : Fin 128) :
    zval V c (ix2 n q) = ∑ k : Fin 128, feat V c (ix2 n k) * wts V c (ix2 k q) := by
  unfold zval
  rw [Payload.pay1_apply]
  exact Finset.sum_congr rfl fun k _ => by rw [iblk0_apply, iblk1_apply]

/-- The point whose block holds row p, and the row's place inside the block. -/
def rowBlock (p : Fin 10000) : Fin cfg0.N := ⟨p.val / 400, by have h : cfg0.N = 25 := N_0; have := p.isLt; omega⟩
def rowIn (p : Fin 10000) : Fin 400 := ⟨p.val % 400, Nat.mod_lt _ (by decide)⟩

/-- The result array as one function: at (p, q) the layer's value on p's strip, at p's place in it. -/
def G (c : Dev nD) : S10000x128.Idx → EReal := fun i => outAt V c (rowBlock (i 0)) (ix2 (rowIn (i 0)) (i 1))

/-- At an index in row 400 t + r, column q, it is strip t's value at (r, q). -/
theorem G_at (c : Dev nD) (t : Fin cfg0.N) (r : Fin 400) (q : Fin 128) (i : S10000x128.Idx)
    (hi0 : (i 0).val = t.val * 400 + r.val) (hi1 : (i 1).val = q.val) : G V c i = outAt V c t (ix2 r q) := by
  unfold G
  have h0 : rowBlock (i 0) = t := Fin.ext (by show (i 0).val / 400 = t.val; have := r.isLt; omega)
  have h1 : rowIn (i 0) = r := Fin.ext (by show (i 0).val % 400 = r.val; have := r.isLt; omega)
  have h2 : (i 1 : Fin 128) = q := Fin.ext hi1
  rw [h0, h1, h2]

/-- What point t writes back is block t of that function. -/
theorem flushed_eq (c : Dev nD) (t : Fin cfg0.N) :
    (dat V c).flushed 4 t = ((cfg0.win 4).blk t).view.read (Elt Ideal) (G V c) := by
  show (cfg0.win 4).cut (grid0.coords t) ((dat V c).after 4 t) = _
  rw [after_4]
  obtain ⟨-, -, -, -, -, -, -, -, e0, e1⟩ := idx_facts t
  funext j
  obtain ⟨r, q, rfl⟩ : ∃ (r : Fin 400) (q : Fin 128), j = ix2 r q := ⟨j 0, j 1, eq_ix2 j⟩
  show outAt V c t (ix2 r q) = G V c (((cfg0.win 4).blk t).view.emb (ix2 r q))
  exact (G_at V c t r q _
    (by show win0_4.index t (0 : Fin 2) * 400 + 1 * r.val = t.val * 400 + r.val; omega)
    (by show win0_4.index t (1 : Fin 2) * 128 + 1 * q.val = q.val; omega)).symm

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v19).slice (win0_4.rect t)).set ↔ _
  rw [View.set_slice_whole, Rect.mem_set_unit]
  exact Iff.rfl

/-- The 25 blocks cover the array: row p is in block p / 400. -/
theorem cover (i : S10000x128.Idx) : ∃ t : Fin cfg0.N, (cfg0.win 4).flush t = true ∧ i ∈ ((cfg0.win 4).blk t).view.set := by
  refine ⟨rowBlock (i 0), flush0_4 _, ?_⟩
  rw [mem_blk]
  obtain ⟨-, -, -, -, -, -, -, -, e0, e1⟩ := idx_facts (rowBlock (i 0))
  have hb : (rowBlock (i 0)).val = (i 0).val / 400 := rfl
  have h1 : (i 1).val < 128 := (i 1).isLt
  intro a
  match a with
  | ⟨0, _⟩ => show win0_4.index (rowBlock (i 0)) (0 : Fin 2) * 400 ≤ (i 0).val ∧ (i 0).val < win0_4.index (rowBlock (i 0)) (0 : Fin 2) * 400 + 400; omega
  | ⟨1, _⟩ => show win0_4.index (rowBlock (i 0)) (1 : Fin 2) * 128 ≤ (i 1).val ∧ (i 1).val < win0_4.index (rowBlock (i 0)) (1 : Fin 2) * 128 + 128; omega

/-- THE RESULT ARRAY after the region. -/
theorem final (c : Dev nD) : (dat V c).arrAt 4 cfg0.N = G V c :=
  (dat V c).arrAt_eq_of_cover 4 (G V c) (fun t _ => flushed_eq V c t) (cover)

/-- … entry by entry, from the arrays the region was entered with. -/
theorem G_apply (c : Dev nD) (p : Fin 10000) (q : Fin 128) :
    G V c (ix2 p q) = max ((∑ n : Fin 10000, adj V c (ix2 p n)
        * ∑ k : Fin 128, feat V c (ix2 n k) * wts V c (ix2 k q))
      + bias V c (ix2 (0 : Fin 1) q)) 0 := by
  show outAt V c (rowBlock p) (ix2 (rowIn p) q) = _
  unfold outAt
  rw [Payload.pay2_apply]
  have hp : p.val = (rowBlock p).val * 400 + (rowIn p).val := by
    show p.val = p.val / 400 * 400 + p.val % 400; omega
  refine congrArg (fun s => max s 0) ?_
  refine congrArg₂ (· + ·) (Finset.sum_congr rfl fun n _ => ?_) (iblk2_apply V c _ q)
  rw [iblk3_apply V c (rowBlock p) (rowIn p) n p hp, zval_apply]

end Cert.KernelIdeal.Layer0

end
-- ==== Proof.KI.Final1.lean ====
/-
  What the second region leaves in its result array, at the exact instance. Point t writes back rows 400 t … 400 t + 399;
  the 25 blocks tile the 10000 rows, so the array ends as one function of the arrays the region was entered with: at
  row p, column q, the strip's row p times Z, plus the bias row, clamped at zero — Z being the product of the whole
  feature array and the whole weight array. The feature, weight and bias windows have one block, the whole array, at
  every point; the adjacency window's block at point t is rows 400 t … 400 t + 399, all columns.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import proofs.«127892_g13743895347428_cont_sun_m_1394_3_alg».proof.Proof.KI.Data1
import proofs.«127892_g13743895347428_cont_sun_m_1394_3_alg».proof.Proof.KI.Payload
import Idealize.ShloMosaic.Lib.ValueIdx
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

variable (V : (c : Dev nD) → (b : Ref sig .tc) → Buf (Elt Ideal) ((c : Thread nD τ).loc b))

/-- The four arrays the region reads, as it finds them: features, scaled weights, folded bias row, adjacency. -/
abbrev feat (c : Dev nD) : S10000x128.Idx → EReal := V c main_v19
abbrev wts (c : Dev nD) : S128x128.Idx → EReal := V c main_v22
abbrev bias (c : Dev nD) : S1x128.Idx → EReal := V c main_v15
abbrev adj (c : Dev nD) : S10000x10000.Idx → EReal := V c main_arg1

/-- The printed index maps, decided over the grid: the three one-block windows stay at block (0, 0); the adjacency
    window and the result window are at block (t, 0). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The feature window's block is the whole feature array. -/
theorem iblk0_apply (c : Dev nD) (t : Fin cfg1.N) (n : Fin 10000) (k : Fin 128) :
    (iblk V c 0 t : S10000x128.Idx → EReal) (ix2 n k) = feat V c (ix2 n k) := by
  obtain ⟨e0, e1, -⟩ := idx_facts t
  show feat V c (((cfg1.win 0).blk t).view.emb (ix2 n k)) = _
  refine congrArg _ (funext fun a => Fin.ext ?_)
  match a with
  | ⟨0, _⟩ => show win1_0.index t (0 : Fin 2) * 10000 + 1 * n.val = n.val; omega
  | ⟨1, _⟩ => show win1_0.index t (1 : Fin 2) * 128 + 1 * k.val = k.val; omega

/-- The weight window's block is the whole weight array. -/
theorem iblk1_apply (c : Dev nD) (t : Fin cfg1.N) (k : Fin 128) (q : Fin 128) :
    (iblk V c 1 t : S128x128.Idx → EReal) (ix2 k q) = wts V c (ix2 k q) := by
  obtain ⟨-, -, e0, e1, -⟩ := idx_facts t
  show wts V c (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias window's block is the whole bias row. -/
theorem iblk2_apply (c : Dev nD) (t : Fin cfg1.N) (q : Fin 128) :
    (iblk V c 2 t : S1x128.Idx → EReal) (ix2 (0 : Fin 1) q) = bias V c (ix2 (0 : Fin 1) q) := by
  obtain ⟨-, -, -, -, e0, e1, -⟩ := idx_facts t
  show bias V c (((cfg1.win 2).blk t).view.emb (ix2 (0 : Fin 1) q)) = _
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- The adjacency window's block at point t is rows 400 t … 400 t + 399 of the adjacency array. -/
theorem iblk3_apply (c : Dev nD) (t : Fin cfg1.N) (r : Fin 400) (n : Fin 10000) (p : Fin 10000) (hp : p.val = t.val * 400 + r.val) :
    (iblk V c 3 t : S400x10000.Idx → EReal) (ix2 r n) = adj V c (ix2 p n) := by
  obtain ⟨-, -, -, -, -, -, e0, e1, -⟩ := idx_facts t
  show adj V c (((cfg1.win 3).blk t).view.emb (ix2 r n)) = _
  refine congrArg _ (funext fun a => Fin.ext ?_)
  match a with
  | ⟨0, _⟩ => show win1_3.index t (0 : Fin 2) * 400 + 1 * r.val = p.val; omega
  | ⟨1, _⟩ => show win1_3.index t (1 : Fin 2) * 10000 + 1 * n.val = n.val; omega

/-- Z, entry by entry: row n of the features against column q of the weights. -/
theorem zval_apply (c : Dev nD) (n : Fin 10000) (q : Fin 128) :
    zval V c (ix2 n q) = ∑ k : Fin 128, feat V c (ix2 n k) * wts V c (ix2 k q) := by
  unfold zval
  rw [Payload.pay1_apply']
  exact Finset.sum_congr rfl fun k _ => by rw [iblk0_apply, iblk1_apply]

/-- The point whose block holds row p, and the row's place inside the block. -/
def rowBlock (p : Fin 10000) : Fin cfg1.N := ⟨p.val / 400, by have h : cfg1.N = 25 := N_1; have := p.isLt; omega⟩
def rowIn (p : Fin 10000) : Fin 400 := ⟨p.val % 400, Nat.mod_lt _ (by decide)⟩

/-- The result array as one function: at (p, q) the layer's value on p's strip, at p's place in it. -/
def G (c : Dev nD) : S10000x128.Idx → EReal := fun i => outAt V c (rowBlock (i 0)) (ix2 (rowIn (i 0)) (i 1))

/-- At an index in row 400 t + r, column q, it is strip t's value at (r, q). -/
theorem G_at (c : Dev nD) (t : Fin cfg1.N) (r : Fin 400) (q : Fin 128) (i : S10000x128.Idx)
    (hi0 : (i 0).val = t.val * 400 + r.val) (hi1 : (i 1).val = q.val) : G V c i = outAt V c t (ix2 r q) := by
  unfold G
  have h0 : rowBlock (i 0) = t := Fin.ext (by show (i 0).val / 400 = t.val; have := r.isLt; omega)
  have h1 : rowIn (i 0) = r := Fin.ext (by show (i 0).val % 400 = r.val; have := r.isLt; omega)
  have h2 : (i 1 : Fin 128) = q := Fin.ext hi1
  rw [h0, h1, h2]

/-- What point t writes back is block t of that function. -/
theorem flushed_eq (c : Dev nD) (t : Fin cfg1.N) :
    (dat V c).flushed 4 t = ((cfg1.win 4).blk t).view.read (Elt Ideal) (G V c) := by
  show (cfg1.win 4).cut (grid1.coords t) ((dat V c).after 4 t) = _
  rw [after_4]
  obtain ⟨-, -, -, -, -, -, -, -, e0, e1⟩ := idx_facts t
  funext j
  obtain ⟨r, q, rfl⟩ : ∃ (r : Fin 400) (q : Fin 128), j = ix2 r q := ⟨j 0, j 1, eq_ix2 j⟩
  show outAt V c t (ix2 r q) = G V c (((cfg1.win 4).blk t).view.emb (ix2 r q))
  exact (G_at V c t r q _
    (by show win1_4.index t (0 : Fin 2) * 400 + 1 * r.val = t.val * 400 + r.val; omega)
    (by show win1_4.index t (1 : Fin 2) * 128 + 1 * q.val = q.val; omega)).symm

/-- An index of the result array is in point t's block iff each coordinate is in the block's range on its axis. -/
theorem mem_blk (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v23).slice (win1_4.rect t)).set ↔ _
  rw [View.set_slice_whole, Rect.mem_set_unit]
  exact Iff.rfl

/-- The 25 blocks cover the array: row p is in block p / 400. -/
theorem cover (i : S10000x128.Idx) : ∃ t : Fin cfg1.N, (cfg1.win 4).flush t = true ∧ i ∈ ((cfg1.win 4).blk t).view.set := by
  refine ⟨rowBlock (i 0), flush1_4 _, ?_⟩
  rw [mem_blk]
  obtain ⟨-, -, -, -, -, -, -, -, e0, e1⟩ := idx_facts (rowBlock (i 0))
  have hb : (rowBlock (i 0)).val = (i 0).val / 400 := rfl
  have h1 : (i 1).val < 128 := (i 1).isLt
  intro a
  match a with
  | ⟨0, _⟩ => show win1_4.index (rowBlock (i 0)) (0 : Fin 2) * 400 ≤ (i 0).val ∧ (i 0).val < win1_4.index (rowBlock (i 0)) (0 : Fin 2) * 400 + 400; omega
  | ⟨1, _⟩ => show win1_4.index (rowBlock (i 0)) (1 : Fin 2) * 128 ≤ (i 1).val ∧ (i 1).val < win1_4.index (rowBlock (i 0)) (1 : Fin 2) * 128 + 128; omega

/-- THE RESULT ARRAY after the region. -/
theorem final (c : Dev nD) : (dat V c).arrAt 4 cfg1.N = G V c :=
  (dat V c).arrAt_eq_of_cover 4 (G V c) (fun t _ => flushed_eq V c t) (cover)

/-- … entry by entry, from the arrays the region was entered with. -/
theorem G_apply (c : Dev nD) (p : Fin 10000) (q : Fin 128) :
    G V c (ix2 p q) = max ((∑ n : Fin 10000, adj V c (ix2 p n)
        * ∑ k : Fin 128, feat V c (ix2 n k) * wts V c (ix2 k q))
      + bias V c (ix2 (0 : Fin 1) q)) 0 := by
  show outAt V c (rowBlock p) (ix2 (rowIn p) q) = _
  unfold outAt
  rw [Payload.pay2_apply']
  have hp : p.val = (rowBlock p).val * 400 + (rowIn p).val := by
    show p.val = p.val / 400 * 400 + p.val % 400; omega
  refine congrArg (fun s => max s 0) ?_
  refine congrArg₂ (· + ·) (Finset.sum_congr rfl fun n _ => ?_) (iblk2_apply V c _ q)
  rw [iblk3_apply V c (rowBlock p) (rowIn p) n p hp, zval_apply]

end Cert.KernelIdeal.Layer1

end
-- ==== Proof.GcnSpec.lean ====
/-
  Two stacked graph-convolution layers, written index by index on the extended reals, in the two arrangements the
  two programs compute.

  One layer takes features X (10000 x 128), a dense adjacency matrix A (10000 x 10000), weights W (128 x 128) and
  five per-channel vectors: a bias b, and a normalisation's gain g, shift beta, running mean mm and running
  variance mv. With r_q = sqrt (mv_q + eps):

  * the reference normalises after the products:   max ( ((sum_n A_pn (sum_k X_nk W_kq)) + b_q - mm_q) / r_q * g_q + beta_q, 0 );
  * the kernel folds the normalisation into the weights and the bias first, with s_q = g_q / r_q:
                                                   max ( (sum_n A_pn (sum_k X_nk (W_kq s_q))) + ((b_q - mm_q) s_q + beta_q), 0 ).

  The second layer takes the first layer's result as its features and the same adjacency matrix.
  eps is the single-precision number nearest to 1/1000, the same word in both programs.
-/
import Idealize.ShloMosaic.PureOps.Ideal
import Idealize.ShloMosaic.PureOps.Ideal.Laws

noncomputable section

namespace Cert.Gcn

open Idealize.ShloMosaic

/-- The epsilon under the square root. -/
def eps : EReal := Ideal.ofBits .f32 0x3A83126F#32

/-- An extended real that is a real number. -/
def IsReal (v : EReal) : Prop := ∃ r : ℝ, v = (r : EReal)

/-- The folded per-channel scale g / sqrt (mv + eps). -/
def scale (g mv : Fin 128 → EReal) (q : Fin 128) : EReal := Ideal.div (g q) (Ideal.sqrt (mv q + eps))

/-- One layer as the kernel computes it. -/
def kLayer (X : Fin 10000 → Fin 128 → EReal) (A : Fin 10000 → Fin 10000 → EReal) (W : Fin 128 → Fin 128 → EReal)
    (b g beta mm mv : Fin 128 → EReal) (p : Fin 10000) (q : Fin 128) : EReal :=
  max ((∑ n : Fin 10000, A p n * ∑ k : Fin 128, X n k * (W k q * scale g mv q)) + ((b q - mm q) * scale g mv q + beta q)) 0

/-- One layer as the reference computes it. -/
def rLayer (X : Fin 10000 → Fin 128 → EReal) (A : Fin 10000 → Fin 10000 → EReal) (W : Fin 128 → Fin 128 → EReal)
    (b g beta mm mv : Fin 128 → EReal) (p : Fin 10000) (q : Fin 128) : EReal :=
  max (Ideal.div (((∑ n : Fin 10000, A p n * ∑ k : Fin 128, X n k * W k q) + b q) - mm q) (Ideal.sqrt (mv q + eps)) * g q + beta q) 0

/-- Both layers, the kernel's arrangement. -/
def kNet (x : Fin 10000 → Fin 128 → EReal) (a : Fin 10000 → Fin 10000 → EReal)
    (W1 : Fin 128 → Fin 128 → EReal) (b1 g1 beta1 mm1 mv1 : Fin 128 → EReal)
    (W2 : Fin 128 → Fin 128 → EReal) (b2 g2 beta2 mm2 mv2 : Fin 128 → EReal) : Fin 10000 → Fin 128 → EReal :=
  kLayer (kLayer x a W1 b1 g1 beta1 mm1 mv1) a W2 b2 g2 beta2 mm2 mv2

/-- Both layers, the reference's arrangement. -/
def rNet (x : Fin 10000 → Fin 128 → EReal) (a : Fin 10000 → Fin 10000 → EReal)
    (W1 : Fin 128 → Fin 128 → EReal) (b1 g1 beta1 mm1 mv1 : Fin 128 → EReal)
    (W2 : Fin 128 → Fin 128 → EReal) (b2 g2 beta2 mm2 mv2 : Fin 128 → EReal) : Fin 10000 → Fin 128 → EReal :=
  rLayer (rLayer x a W1 b1 g1 beta1 mm1 mv1) a W2 b2 g2 beta2 mm2 mv2

end Cert.Gcn

end
-- ==== Proof.KI.HostVals.lean ====
/-
  What the host operations before and between the two kernel calls leave in the buffers the calls read, at an index.

  Before the first call the host computes, for each layer, the per-channel scale s = g / sqrt (mv + eps) and the folded
  bias (b - mm) * s + beta laid out as one row, and for the first layer the weights with column q multiplied by s_q
  (the scale made a row, the row repeated over the rows of the weights). Between the calls it does the same to the
  second layer's weights from the scale already computed.
-/
import proofs.«127892_g13743895347428_cont_sun_m_1394_3_alg».proof.Proof.Gen.KernelIdeal.Launch
import proofs.«127892_g13743895347428_cont_sun_m_1394_3_alg».proof.Proof.GcnSpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVals

open Cert.KernelIdeal Cert.KernelIdeal.Gen Idealize.ShloMosaic Idealize.ShloMosaic.StableHlo Idealize.ShloMosaic.ValueIdx

/-! The buffers of a valuation are arrays of extended reals only after their types are unfolded, so the arithmetic of
the statements below is written with the extended reals' operations named outright. -/
local infixl:70 " *ₑ " => @HMul.hMul EReal EReal EReal instHMul
local infixl:65 " +ₑ " => @HAdd.hAdd EReal EReal EReal instHAdd
local infixl:65 " -ₑ " => @HSub.hSub EReal EReal EReal instHSub

/-! ### The two layout operations at an index -/

/-- A 128-vector laid out as one row reads, at (u, q), the vector at q. -/
theorem row_of_vec_apply {α : Type} (h : S128.BroadcastsInDim S1x128 (![1] : Fin 1 → Fin S1x128.rank)) (v : S128.Idx → α)
    (u : Fin 1) (q : Fin 128) : broadcastInDim S1x128 ![1] h v (ix2 u q) = v (ix1 q) :=
  broadcastInDim_apply _ h v (ix2 u q) (ix1 q) (fun a => match a with
    | ⟨0, _⟩ => by show q.val = if (128 : Nat) = 1 then 0 else q.val; rw [if_neg (by decide)])

/-- One row repeated over 128 rows reads, at (k, q), the row at q. -/
theorem mat_of_row_apply {α : Type} (h : S1x128.BroadcastsInDim S128x128 (![0, 1] : Fin 2 → Fin S128x128.rank)) (y : S1x128.Idx → α)
    (k q : Fin 128) : broadcastInDim S128x128 ![0, 1] h y (ix2 k q) = y (ix2 (0 : Fin 1) q) :=
  broadcastInDim_apply _ h y (ix2 k q) (ix2 (0 : Fin 1) q) (fun a => match a with
    | ⟨0, _⟩ => by show (0 : Nat) = if (1 : Nat) = 1 then 0 else k.val; rw [if_pos rfl]
    | ⟨1, _⟩ => by show q.val = if (128 : Nat) = 1 then 0 else q.val; rw [if_neg (by decide)])

/-! ### Before the first call -/

section Before

variable (X : Valuation τ sig (Elt Ideal))

/-- The second layer's scale. -/
theorem v11_apply (q : Fin 128) :
    (StableHlo.after hostOps0 X (Proc.devRef .tc main_v11) : S128.Idx → EReal) (ix1 q) = Cert.Gcn.scale (fun j => (X (Proc.devRef .tc main_arg10) : S128.Idx → EReal) (ix1 j)) (fun j => (X (Proc.devRef .tc main_arg13) : S128.Idx → EReal) (ix1 j)) q := by
  after_results_simp
  rfl

/-- The first layer's scale. -/
theorem v3_apply (q : Fin 128) :
    (StableHlo.after hostOps0 X (Proc.devRef .tc main_v3) : S128.Idx → EReal) (ix1 q) = Cert.Gcn.scale (fun j => (X (Proc.devRef .tc main_arg4) : S128.Idx → EReal) (ix1 j)) (fun j => (X (Proc.devRef .tc main_arg7) : S128.Idx → EReal) (ix1 j)) q := by
  after_results_simp
  rfl

/-- The first layer's weights, column q multiplied by the scale at q. -/
theorem v18_apply (k q : Fin 128) :
    (StableHlo.after hostOps0 X (Proc.devRef .tc main_v18) : S128x128.Idx → EReal) (ix2 k q)
      = (X (Proc.devRef .tc main_arg2) : S128x128.Idx → EReal) (ix2 k q) *ₑ Cert.Gcn.scale (fun j => (X (Proc.devRef .tc main_arg4) : S128.Idx → EReal) (ix1 j)) (fun j => (X (Proc.devRef .tc main_arg7) : S128.Idx → EReal) (ix1 j)) q := by
  after_results_simp
  rw [mulf_apply, mat_of_row_apply, row_of_vec_apply]
  rfl

/-- The first layer's folded bias, as one row. -/
theorem v7_apply (q : Fin 128) :
    (StableHlo.after hostOps0 X (Proc.devRef .tc main_v7) : S1x128.Idx → EReal) (ix2 (0 : Fin 1) q)
      = ((X (Proc.devRef .tc main_arg3) : S128.Idx → EReal) (ix1 q) -ₑ (X (Proc.devRef .tc main_arg6) : S128.Idx → EReal) (ix1 q)) *ₑ Cert.Gcn.scale (fun j => (X (Proc.devRef .tc main_arg4) : S128.Idx → EReal) (ix1 j)) (fun j => (X (Proc.devRef .tc main_arg7) : S128.Idx → EReal) (ix1 j)) q
        +ₑ (X (Proc.devRef .tc main_arg5) : S128.Idx → EReal) (ix1 q) := by
  after_results_simp
  refine (shapeCast_a_1a_apply (a := 128) _ _ (0 : Fin 1) q).trans ?_
  rfl

/-- The second layer's folded bias, as one row. -/
theorem v15_apply (q : Fin 128) :
    (StableHlo.after hostOps0 X (Proc.devRef .tc main_v15) : S1x128.Idx → EReal) (ix2 (0 : Fin 1) q)
      = ((X (Proc.devRef .tc main_arg9) : S128.Idx → EReal) (ix1 q) -ₑ (X (Proc.devRef .tc main_arg12) : S128.Idx → EReal) (ix1 q)) *ₑ Cert.Gcn.scale (fun j => (X (Proc.devRef .tc main_arg10) : S128.Idx → EReal) (ix1 j)) (fun j => (X (Proc.devRef .tc main_arg13) : S128.Idx → EReal) (ix1 j)) q
        +ₑ (X (Proc.devRef .tc main_arg11) : S128.Idx → EReal) (ix1 q) := by
  after_results_simp
  refine (shapeCast_a_1a_apply (a := 128) _ _ (0 : Fin 1) q).trans ?_
  rfl

end Before

/-! ### Between the calls -/

section Between

variable (Y : Valuation τ sig (Elt Ideal))

/-- The second layer's weights, column q multiplied by the scale already in its buffer. -/
theorem v22_apply (k q : Fin 128) :
    (StableHlo.after hostOps1 Y (Proc.devRef .tc main_v22) : S128x128.Idx → EReal) (ix2 k q)
      = (Y (Proc.devRef .tc main_arg8) : S128x128.Idx → EReal) (ix2 k q) *ₑ (Y (Proc.devRef .tc main_v11) : S128.Idx → EReal) (ix1 q) := by
  after_results_simp
  rw [mulf_apply, mat_of_row_apply, row_of_vec_apply]

end Between

end Cert.KernelIdeal.HostVals

end
-- ==== Proof.KI.Value.lean ====
/-
  The value of the idealized kernel's result. Read through the segment boundaries, the second region's result array
  is, entry by entry, the two stacked layers in the kernel's arrangement applied to the launch contents of the fourteen
  argument arrays: the first region's entry arrays are the features and adjacency as launched and the first host
  stretch's scaled weights and folded bias; the second region's are the first region's result, the adjacency as
  launched, the second host stretch's scaled weights (from the scale the first stretch computed) and the first
  stretch's second folded bias.
-/
import proofs.«127892_g13743895347428_cont_sun_m_1394_3_alg».proof.Proof.Gen.KernelIdeal.Launch
import proofs.«127892_g13743895347428_cont_sun_m_1394_3_alg».proof.Proof.Gen.KernelIdeal.Skeleton
import proofs.«127892_g13743895347428_cont_sun_m_1394_3_alg».proof.Proof.Gen.KernelIdeal.Points
import proofs.«127892_g13743895347428_cont_sun_m_1394_3_alg».proof.Proof.KI.Frame
import proofs.«127892_g13743895347428_cont_sun_m_1394_3_alg».proof.Proof.KI.Final0
import proofs.«127892_g13743895347428_cont_sun_m_1394_3_alg».proof.Proof.KI.Final1
import proofs.«127892_g13743895347428_cont_sun_m_1394_3_alg».proof.Proof.KI.HostVals
import proofs.«127892_g13743895347428_cont_sun_m_1394_3_alg».proof.Proof.GcnSpec
import Idealize.ShloMosaic.Lib.ValueIdx
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx Cert.Gcn

variable (m : (ℓ : Loc nD τ sig) → Buf (Elt Ideal) ℓ) (ρ : Dev nD → PrngReg)

/-! The launch contents of the fourteen argument arrays, entry by entry. -/
abbrev px (c : Dev nD) : Fin 10000 → Fin 128 → EReal := fun n k => m ((c : Thread nD τ).loc main_arg0) (ix2 n k)
abbrev pa (c : Dev nD) : Fin 10000 → Fin 10000 → EReal := fun i n => m ((c : Thread nD τ).loc main_arg1) (ix2 i n)
abbrev pW1 (c : Dev nD) : Fin 128 → Fin 128 → EReal := fun k j => m ((c : Thread nD τ).loc main_arg2) (ix2 k j)
abbrev pb1 (c : Dev nD) : Fin 128 → EReal := fun j => m ((c : Thread nD τ).loc main_arg3) (ix1 j)
abbrev pg1 (c : Dev nD) : Fin 128 → EReal := fun j => m ((c : Thread nD τ).loc main_arg4) (ix1 j)
abbrev pbeta1 (c : Dev nD) : Fin 128 → EReal := fun j => m ((c : Thread nD τ).loc main_arg5) (ix1 j)
abbrev pmm1 (c : Dev nD) : Fin 128 → EReal := fun j => m ((c : Thread nD τ).loc main_arg6) (ix1 j)
abbrev pmv1 (c : Dev nD) : Fin 128 → EReal := fun j => m ((c : Thread nD τ).loc main_arg7) (ix1 j)
abbrev pW2 (c : Dev nD) : Fin 128 → Fin 128 → EReal := fun k j => m ((c : Thread nD τ).loc main_arg8) (ix2 k j)
abbrev pb2 (c : Dev nD) : Fin 128 → EReal := fun j => m ((c : Thread nD τ).loc main_arg9) (ix1 j)
abbrev pg2 (c : Dev nD) : Fin 128 → EReal := fun j => m ((c : Thread nD τ).loc main_arg10) (ix1 j)
abbrev pbeta2 (c : Dev nD) : Fin 128 → EReal := fun j => m ((c : Thread nD τ).loc main_arg11) (ix1 j)
abbrev pmm2 (c : Dev nD) : Fin 128 → EReal := fun j => m ((c : Thread nD τ).loc main_arg12) (ix1 j)
abbrev pmv2 (c : Dev nD) : Fin 128 → EReal := fun j => m ((c : Thread nD τ).loc main_arg13) (ix1 j)

/-! ## The first region's entry arrays -/

theorem feat0_eq (c : Dev nD) (n : Fin 10000) (k : Fin 128) : Layer0.feat (V1 m ρ) c (ix2 n k) = px m c n k :=
  congrFun (W1_keep m ρ c main_arg0 (by decide)) (ix2 n k)
theorem adj0_eq (c : Dev nD) (i n : Fin 10000) : Layer0.adj (V1 m ρ) c (ix2 i n) = pa m c i n :=
  congrFun (W1_keep m ρ c main_arg1 (by decide)) (ix2 i n)
theorem wts0_eq (c : Dev nD) (k q : Fin 128) : Layer0.wts (V1 m ρ) c (ix2 k q) = pW1 m c k q * scale (pg1 m c) (pmv1 m c) q :=
  HostVals.v18_apply (W0 m ρ c) k q
theorem bias0_eq (c : Dev nD) (q : Fin 128) :
    Layer0.bias (V1 m ρ) c (ix2 (0 : Fin 1) q) = (pb1 m c q - pmm1 m c q) * scale (pg1 m c) (pmv1 m c) q + pbeta1 m c q :=
  HostVals.v7_apply (W0 m ρ c) q

/-- The first region's result array is the first layer of the launch contents. -/
theorem layer1_value (c : Dev nD) (p : Fin 10000) (q : Fin 128) :
    Layer0.G (V1 m ρ) c (ix2 p q) = kLayer (px m c) (pa m c) (pW1 m c) (pb1 m c) (pg1 m c) (pbeta1 m c) (pmm1 m c) (pmv1 m c) p q := by
  rw [Layer0.G_apply]
  show _ = max ((∑ n : Fin 10000, pa m c p n * ∑ k : Fin 128, px m c n k * (pW1 m c k q * scale (pg1 m c) (pmv1 m c) q))
    + ((pb1 m c q - pmm1 m c q) * scale (pg1 m c) (pmv1 m c) q + pbeta1 m c q)) 0
  refine congrArg (fun s => max s 0) ?_
  refine congrArg₂ (· + ·) (Finset.sum_congr rfl fun n _ => ?_) (bias0_eq m ρ c q)
  refine congrArg₂ (· * ·) (adj0_eq m ρ c p n) (Finset.sum_congr rfl fun k _ => ?_)
  exact congrArg₂ (· * ·) (feat0_eq m ρ c n k) (wts0_eq m ρ c k q)

/-! ## The second region's entry arrays -/

theorem feat1_eq (c : Dev nD) (n : Fin 10000) (k : Fin 128) :
    Layer1.feat (V3 m ρ) c (ix2 n k) = kLayer (px m c) (pa m c) (pW1 m c) (pb1 m c) (pg1 m c) (pbeta1 m c) (pmm1 m c) (pmv1 m c) n k :=
  (congrFun ((W3_keep m ρ c main_v19 (by decide)).trans ((W2_arr m ρ c 4).trans (Layer0.final (V1 m ρ) c))) (ix2 n k)).trans
    (layer1_value m ρ c n k)
theorem adj1_eq (c : Dev nD) (i n : Fin 10000) : Layer1.adj (V3 m ρ) c (ix2 i n) = pa m c i n :=
  congrFun ((W3_keep m ρ c main_arg1 (by decide)).trans ((W2_keep m ρ c main_arg1 (by decide)).trans (W1_keep m ρ c main_arg1 (by decide)))) (ix2 i n)
theorem wts1_eq (c : Dev nD) (k q : Fin 128) : Layer1.wts (V3 m ρ) c (ix2 k q) = pW2 m c k q * scale (pg2 m c) (pmv2 m c) q := by
  refine (HostVals.v22_apply (W2 m ρ c) k q).trans ?_
  refine congrArg₂ (· * ·)
    (congrFun ((W2_keep m ρ c main_arg8 (by decide)).trans (W1_keep m ρ c main_arg8 (by decide))) (ix2 k q)) ?_
  exact (congrFun (W2_keep m ρ c main_v11 (by decide)) (ix1 q)).trans (HostVals.v11_apply (W0 m ρ c) q)
theorem bias1_eq (c : Dev nD) (q : Fin 128) :
    Layer1.bias (V3 m ρ) c (ix2 (0 : Fin 1) q) = (pb2 m c q - pmm2 m c q) * scale (pg2 m c) (pmv2 m c) q + pbeta2 m c q :=
  (congrFun ((W3_keep m ρ c main_v15 (by decide)).trans (W2_keep m ρ c main_v15 (by decide))) (ix2 (0 : Fin 1) q)).trans
    (HostVals.v15_apply (W0 m ρ c) q)

/-- THE RESULT: the program's result buffer at the last boundary is both layers of the launch contents. -/
theorem result_value (c : Dev nD) (p : Fin 10000) (q : Fin 128) :
    (fun i : S10000x128.Idx => (W4 m ρ c (Proc.devRef .tc main_v23) i : EReal)) (ix2 p q)
      = kNet (px m c) (pa m c) (pW1 m c) (pb1 m c) (pg1 m c) (pbeta1 m c) (pmm1 m c) (pmv1 m c) (pW2 m c) (pb2 m c) (pg2 m c) (pbeta2 m c) (pmm2 m c) (pmv2 m c) p q := by
  refine (congrFun ((W4_arr m ρ c 4).trans (Layer1.final (V3 m ρ) c)) (ix2 p q)).trans ?_
  rw [Layer1.G_apply]
  show _ = max ((∑ n : Fin 10000, pa m c p n * ∑ k : Fin 128, kLayer (px m c) (pa m c) (pW1 m c) (pb1 m c) (pg1 m c) (pbeta1 m c) (pmm1 m c) (pmv1 m c) n k * (pW2 m c k q * scale (pg2 m c) (pmv2 m c) q))
    + ((pb2 m c q - pmm2 m c q) * scale (pg2 m c) (pmv2 m c) q + pbeta2 m c q)) 0
  refine congrArg (fun s => max s 0) ?_
  refine congrArg₂ (· + ·) (Finset.sum_congr rfl fun n _ => ?_) (bias1_eq m ρ c q)
  refine congrArg₂ (· * ·) (adj1_eq m ρ c p n) (Finset.sum_congr rfl fun k _ => ?_)
  exact congrArg₂ (· * ·) (feat1_eq m ρ c n k) (wts1_eq m ρ c k q)

end Cert.KernelIdeal.Net

end
-- ==== Proof.RefRead.lean ====
/-
  The reference's run and its stages read at an index: this module only brings the two generated modules in,
  so that every module that reasons about the reference imports one name.
-/
import proofs.«127892_g13743895347428_cont_sun_m_1394_3_alg».proof.Proof.Gen.ReferenceIdeal.Run
import proofs.«127892_g13743895347428_cont_sun_m_1394_3_alg».proof.Proof.Gen.ReferenceIdeal.Read
-- ==== Proof.RefIsSpec.lean ====
/-
  The reference, read at an index, is the two stacked layers in the reference's arrangement.

  The reference's stages are read one operation at a time. Each broadcast of a per-channel vector to the
  10000 x 128 array reads the vector at the column; each matrix product reads a row of its left operand against a
  column of its right one. With the index functions of those readings identified with plain row/column indices, the
  first layer's last stage at (n, k) is the layer formula of the arguments, and the second layer's last stage at
  (p, q) is the same formula with the first layer's result as its features.
-/
import proofs.«127892_g13743895347428_cont_sun_m_1394_3_alg».proof.Proof.RefRead
import proofs.«127892_g13743895347428_cont_sun_m_1394_3_alg».proof.Proof.GcnSpec
import Idealize.ShloMosaic.Lib.ValueIdx

noncomputable section

namespace Cert.RefSpec

open Cert.ReferenceIdeal Cert.ReferenceIdeal.Read Idealize.ShloMosaic Idealize.ShloMosaic.ValueIdx

/-! ### The index functions of the readings -/

theorem idx_v2_v3 (p : Fin 10000) (q : Fin 128) : idx_main_v2 (idx_main_v3 (ix2 p q)) = ix1 q :=
  funext fun a => Fin.ext (by match a with | ⟨0, _⟩ => rfl)
theorem idx_v5_v6 (p : Fin 10000) (q : Fin 128) : idx_main_v5 (idx_main_v6 (ix2 p q)) = ix1 q :=
  funext fun a => Fin.ext (by match a with | ⟨0, _⟩ => rfl)
theorem idx_v11_v12 (p : Fin 10000) (q : Fin 128) : idx_main_v11 (idx_main_v12 (ix2 p q)) = ix1 q :=
  funext fun a => Fin.ext (by match a with | ⟨0, _⟩ => rfl)
theorem idx_v14_v15 (p : Fin 10000) (q : Fin 128) : idx_main_v14 (idx_main_v15 (ix2 p q)) = ix1 q :=
  funext fun a => Fin.ext (by match a with | ⟨0, _⟩ => rfl)
theorem idx_v17_v18 (p : Fin 10000) (q : Fin 128) : idx_main_v17 (idx_main_v18 (ix2 p q)) = ix1 q :=
  funext fun a => Fin.ext (by match a with | ⟨0, _⟩ => rfl)
theorem idx_v23_v24 (p : Fin 10000) (q : Fin 128) : idx_main_v23 (idx_main_v24 (ix2 p q)) = ix1 q :=
  funext fun a => Fin.ext (by match a with | ⟨0, _⟩ => rfl)
theorem idx_v26_v27 (p : Fin 10000) (q : Fin 128) : idx_main_v26 (idx_main_v27 (ix2 p q)) = ix1 q :=
  funext fun a => Fin.ext (by match a with | ⟨0, _⟩ => rfl)
theorem idx_v32_v33 (p : Fin 10000) (q : Fin 128) : idx_main_v32 (idx_main_v33 (ix2 p q)) = ix1 q :=
  funext fun a => Fin.ext (by match a with | ⟨0, _⟩ => rfl)
theorem idx_v35_v36 (p : Fin 10000) (q : Fin 128) : idx_main_v35 (idx_main_v36 (ix2 p q)) = ix1 q :=
  funext fun a => Fin.ext (by match a with | ⟨0, _⟩ => rfl)
theorem idx_v38_v39 (p : Fin 10000) (q : Fin 128) : idx_main_v38 (idx_main_v39 (ix2 p q)) = ix1 q :=
  funext fun a => Fin.ext (by match a with | ⟨0, _⟩ => rfl)
theorem lidx_v0 (n : Fin 10000) (q : Fin 128) (k : Fin 128) : lidx_main_v0 (ix2 n q) k = ix2 n k :=
  funext fun a => Fin.ext (by match a with | ⟨0, _⟩ => rfl | ⟨1, _⟩ => rfl)
theorem ridx_v0 (n : Fin 10000) (q : Fin 128) (k : Fin 128) : ridx_main_v0 (ix2 n q) k = ix2 k q :=
  funext fun a => Fin.ext (by match a with | ⟨0, _⟩ => rfl | ⟨1, _⟩ => rfl)
theorem lidx_v1 (p : Fin 10000) (q : Fin 128) (n : Fin 10000) : lidx_main_v1 (ix2 p q) n = ix2 p n :=
  funext fun a => Fin.ext (by match a with | ⟨0, _⟩ => rfl | ⟨1, _⟩ => rfl)
theorem ridx_v1 (p : Fin 10000) (q : Fin 128) (n : Fin 10000) : ridx_main_v1 (ix2 p q) n = ix2 n q :=
  funext fun a => Fin.ext (by match a with | ⟨0, _⟩ => rfl | ⟨1, _⟩ => rfl)
theorem lidx_v21 (n : Fin 10000) (q : Fin 128) (k : Fin 128) : lidx_main_v21 (ix2 n q) k = ix2 n k :=
  funext fun a => Fin.ext (by match a with | ⟨0, _⟩ => rfl | ⟨1, _⟩ => rfl)
theorem ridx_v21 (n : Fin 10000) (q : Fin 128) (k : Fin 128) : ridx_main_v21 (ix2 n q) k = ix2 k q :=
  funext fun a => Fin.ext (by match a with | ⟨0, _⟩ => rfl | ⟨1, _⟩ => rfl)
theorem lidx_v22 (p : Fin 10000) (q : Fin 128) (n : Fin 10000) : lidx_main_v22 (ix2 p q) n = ix2 p n :=
  funext fun a => Fin.ext (by match a with | ⟨0, _⟩ => rfl | ⟨1, _⟩ => rfl)
theorem ridx_v22 (p : Fin 10000) (q : Fin 128) (n : Fin 10000) : ridx_main_v22 (ix2 p q) n = ix2 n q :=
  funext fun a => Fin.ext (by match a with | ⟨0, _⟩ => rfl | ⟨1, _⟩ => rfl)

/-! ### The two layers -/

/-- The first layer's last stage at an index is the layer formula of the arguments. -/
theorem layer1_is_rLayer (a0 : (⟨S10000x128, .f32⟩ : BufTy).Contents (Elt Ideal)) (a1 : (⟨S10000x10000, .f32⟩ : BufTy).Contents (Elt Ideal)) (a2 : (⟨S128x128, .f32⟩ : BufTy).Contents (Elt Ideal))
    (a3 a4 a5 a6 a7 : (⟨S128, .f32⟩ : BufTy).Contents (Elt Ideal)) (n : Fin 10000) (k : Fin 128) :
    val_main_v20 (F := Ideal) a0 a1 a2 a3 a4 a5 a6 a7 (ix2 n k)
      = Cert.Gcn.rLayer (fun n k => a0 (ix2 n k)) (fun i n => a1 (ix2 i n)) (fun k j => a2 (ix2 k j)) (fun j => a3 (ix1 j))
          (fun j => a4 (ix1 j)) (fun j => a5 (ix1 j)) (fun j => a6 (ix1 j)) (fun j => a7 (ix1 j)) n k := by
  simp only [val_main_v20_apply, val_main_v19_apply, val_main_v16_apply, val_main_v13_apply, val_main_v7_apply, val_main_v4_apply, val_main_v1_apply, val_main_v0_apply, val_main_v3_apply, val_main_v2_apply, val_main_v6_apply, val_main_v5_apply, val_main_v12_apply, val_main_v11_apply, val_main_v10_apply, val_main_v9_apply, val_main_v8_apply, val_main_v15_apply, val_main_v14_apply, val_main_v18_apply, val_main_v17_apply, val_main_cst_apply, val_main_call0_v0_apply, val_main_call0_cst_apply,
    idx_v2_v3, idx_v5_v6, idx_v11_v12, idx_v14_v15, idx_v17_v18, lidx_v0, ridx_v0, lidx_v1, ridx_v1,
    Ideal.addf_def, Ideal.subf_def, Ideal.mulf_def, Ideal.maximumf_def, Ideal.hostDivf_def, Ideal.hostUnary_sqrt_def, Ideal.ofBits_def, Ideal.ofBits_zero_f32, Cert.Gcn.rLayer, Cert.Gcn.eps]

/-- The second layer's last stage at an index is the layer formula with the first layer's last stage as features. -/
theorem layer2_is_rLayer (a0 : (⟨S10000x128, .f32⟩ : BufTy).Contents (Elt Ideal)) (a1 : (⟨S10000x10000, .f32⟩ : BufTy).Contents (Elt Ideal)) (a2 : (⟨S128x128, .f32⟩ : BufTy).Contents (Elt Ideal))
    (a3 a4 a5 a6 a7 : (⟨S128, .f32⟩ : BufTy).Contents (Elt Ideal)) (a8 : (⟨S128x128, .f32⟩ : BufTy).Contents (Elt Ideal)) (a9 a10 a11 a12 a13 : (⟨S128, .f32⟩ : BufTy).Contents (Elt Ideal))
    (p : Fin 10000) (q : Fin 128) :
    val_main_v41 (F := Ideal) a0 a1 a2 a3 a4 a5 a6 a7 a8 a9 a10 a11 a12 a13 (ix2 p q)
      = Cert.Gcn.rLayer (fun n k => val_main_v20 (F := Ideal) a0 a1 a2 a3 a4 a5 a6 a7 (ix2 n k)) (fun i n => a1 (ix2 i n))
          (fun k j => a8 (ix2 k j)) (fun j => a9 (ix1 j)) (fun j => a10 (ix1 j)) (fun j => a11 (ix1 j)) (fun j => a12 (ix1 j))
          (fun j => a13 (ix1 j)) p q := by
  simp only [val_main_v41_apply, val_main_v40_apply, val_main_v37_apply, val_main_v34_apply, val_main_v28_apply, val_main_v25_apply, val_main_v22_apply, val_main_v21_apply, val_main_v24_apply, val_main_v23_apply, val_main_v27_apply, val_main_v26_apply, val_main_v33_apply, val_main_v32_apply, val_main_v31_apply, val_main_v30_apply, val_main_v29_apply, val_main_v36_apply, val_main_v35_apply, val_main_v39_apply, val_main_v38_apply, val_main_cst_0_apply, val_main_call1_v0_apply, val_main_call1_cst_apply,
    idx_v23_v24, idx_v26_v27, idx_v32_v33, idx_v35_v36, idx_v38_v39, lidx_v21, ridx_v21, lidx_v22, ridx_v22,
    Ideal.addf_def, Ideal.subf_def, Ideal.mulf_def, Ideal.maximumf_def, Ideal.hostDivf_def, Ideal.hostUnary_sqrt_def, Ideal.ofBits_def, Ideal.ofBits_zero_f32, Cert.Gcn.rLayer, Cert.Gcn.eps]

/-- The reference's result at an index is the two stacked layers of the arguments. -/
theorem ref_is_rNet (a0 : (⟨S10000x128, .f32⟩ : BufTy).Contents (Elt Ideal)) (a1 : (⟨S10000x10000, .f32⟩ : BufTy).Contents (Elt Ideal)) (a2 : (⟨S128x128, .f32⟩ : BufTy).Contents (Elt Ideal))
    (a3 a4 a5 a6 a7 : (⟨S128, .f32⟩ : BufTy).Contents (Elt Ideal)) (a8 : (⟨S128x128, .f32⟩ : BufTy).Contents (Elt Ideal)) (a9 a10 a11 a12 a13 : (⟨S128, .f32⟩ : BufTy).Contents (Elt Ideal))
    (p : Fin 10000) (q : Fin 128) :
    val_main_v41 (F := Ideal) a0 a1 a2 a3 a4 a5 a6 a7 a8 a9 a10 a11 a12 a13 (ValueIdx.ix2 p q)
      = Cert.Gcn.rNet (fun n k => a0 (ValueIdx.ix2 n k)) (fun i n => a1 (ValueIdx.ix2 i n)) (fun k j => a2 (ValueIdx.ix2 k j))
          (fun j => a3 (ValueIdx.ix1 j)) (fun j => a4 (ValueIdx.ix1 j)) (fun j => a5 (ValueIdx.ix1 j)) (fun j => a6 (ValueIdx.ix1 j))
          (fun j => a7 (ValueIdx.ix1 j)) (fun k j => a8 (ValueIdx.ix2 k j)) (fun j => a9 (ValueIdx.ix1 j)) (fun j => a10 (ValueIdx.ix1 j))
          (fun j => a11 (ValueIdx.ix1 j)) (fun j => a12 (ValueIdx.ix1 j)) (fun j => a13 (ValueIdx.ix1 j)) p q := by
  have h1 : (fun n k => val_main_v20 (F := Ideal) a0 a1 a2 a3 a4 a5 a6 a7 (ix2 n k))
      = Cert.Gcn.rLayer (fun n k => a0 (ix2 n k)) (fun i n => a1 (ix2 i n)) (fun k j => a2 (ix2 k j)) (fun j => a3 (ix1 j))
          (fun j => a4 (ix1 j)) (fun j => a5 (ix1 j)) (fun j => a6 (ix1 j)) (fun j => a7 (ix1 j)) :=
    funext fun n => funext fun k => layer1_is_rLayer a0 a1 a2 a3 a4 a5 a6 a7 n k
  rw [layer2_is_rLayer, h1]
  rfl

end Cert.RefSpec

end
-- ==== Proof.GcnLaw.lean ====
/-
  The two arrangements of a graph-convolution layer give the same extended real whenever every input is a real
  number and every running variance plus epsilon is positive.

  With every entry a real number, each layer is a real-number expression read in the extended reals: sums and
  products of real numbers stay real, the square root of a positive real is a positive real, and division by a
  nonzero real is multiplication by its reciprocal. Over the reals the two arrangements differ only by taking the
  per-channel factor s = g / sqrt (mv + eps) out of the double sum,

      sum_n A_pn (sum_k X_nk (W_kq s)) = (sum_n A_pn (sum_k X_nk W_kq)) s,

  and by (S + b - mm) / r * g = S (g / r) + (b - mm) (g / r). A layer's result is again real at every index, so
  the second layer's features satisfy the same hypothesis and the two stacked layers agree too.
-/
import proofs.«127892_g13743895347428_cont_sun_m_1394_3_alg».proof.Proof.GcnSpec

noncomputable section

namespace Cert.Gcn

open Idealize.ShloMosaic

/-! ### Real numbers inside the extended reals -/

/-- A finite sum of real numbers, read in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, read in the extended reals. -/
theorem coe_max (x y : ℝ) : max (x : EReal) (y : EReal) = ((max x y : ℝ) : EReal) :=
  (EReal.coe_strictMono.monotone.map_max).symm

/-- The epsilon is a real number: its pattern's exponent field is neither all ones nor all zeros. -/
theorem eps_isReal : IsReal eps := by
  unfold eps Ideal.ofBits Ideal.ieee
  dsimp only
  rw [if_neg (by decide), if_neg (by decide)]
  exact ⟨_, rfl⟩

/-- A vector of real entries is the entrywise reading of a real vector. -/
theorem exists_real₁ {α : Type*} {f : α → EReal} (h : ∀ a, IsReal (f a)) :
    ∃ fr : α → ℝ, f = fun a => ((fr a : ℝ) : EReal) := by
  choose fr hfr using h
  exact ⟨fr, funext hfr⟩

/-- A matrix of real entries is the entrywise reading of a real matrix. -/
theorem exists_real₂ {α β : Type*} {f : α → β → EReal} (h : ∀ a b, IsReal (f a b)) :
    ∃ fr : α → β → ℝ, f = fun a b => ((fr a b : ℝ) : EReal) := by
  choose fr hfr using h
  exact ⟨fr, funext fun a => funext fun b => hfr a b⟩

/-! ### One layer over the reals -/

/-- The kernel's arrangement of one layer over the reals, with `e` for the epsilon. -/
def kLayerR (X : Fin 10000 → Fin 128 → ℝ) (A : Fin 10000 → Fin 10000 → ℝ) (W : Fin 128 → Fin 128 → ℝ)
    (b g beta mm mv : Fin 128 → ℝ) (e : ℝ) (p : Fin 10000) (q : Fin 128) : ℝ :=
  max ((∑ n : Fin 10000, A p n * ∑ k : Fin 128, X n k * (W k q * (g q * (1 / Real.sqrt (mv q + e)))))
    + ((b q - mm q) * (g q * (1 / Real.sqrt (mv q + e))) + beta q)) 0

/-- The reference's arrangement of one layer over the reals, with `e` for the epsilon. -/
def rLayerR (X : Fin 10000 → Fin 128 → ℝ) (A : Fin 10000 → Fin 10000 → ℝ) (W : Fin 128 → Fin 128 → ℝ)
    (b g beta mm mv : Fin 128 → ℝ) (e : ℝ) (p : Fin 10000) (q : Fin 128) : ℝ :=
  max ((((∑ n : Fin 10000, A p n * ∑ k : Fin 128, X n k * W k q) + b q) - mm q) * (1 / Real.sqrt (mv q + e)) * g q
    + beta q) 0

/-- A factor that does not depend on the summation indices comes out of the double sum. -/
theorem sum_sum_mul_right {N K : Type*} [Fintype N] [Fintype K] (A : N → ℝ) (X : N → K → ℝ) (W : K → ℝ) (s : ℝ) :
    (∑ n : N, A n * ∑ k : K, X n k * (W k * s)) = (∑ n : N, A n * ∑ k : K, X n k * W k) * s := by
  simp only [Finset.mul_sum, Finset.sum_mul]
  exact Finset.sum_congr rfl fun n _ => Finset.sum_congr rfl fun k _ => by ring

/-- Over the reals the two arrangements of a layer are the same number. -/
theorem kLayerR_eq_rLayerR (X : Fin 10000 → Fin 128 → ℝ) (A : Fin 10000 → Fin 10000 → ℝ) (W : Fin 128 → Fin 128 → ℝ)
    (b g beta mm mv : Fin 128 → ℝ) (e : ℝ) (p : Fin 10000) (q : Fin 128) :
    kLayerR X A W b g beta mm mv e p q = rLayerR X A W b g beta mm mv e p q := by
  unfold kLayerR rLayerR
  rw [sum_sum_mul_right (fun n => A p n) X (fun k => W k q)]
  congr 1
  ring

/-! ### One layer on real inputs is its real-number expression -/

section Coe

variable (X : Fin 10000 → Fin 128 → ℝ) (A : Fin 10000 → Fin 10000 → ℝ) (W : Fin 128 → Fin 128 → ℝ)
  (b g beta mm mv : Fin 128 → ℝ) (e : ℝ) (he : eps = ((e : ℝ) : EReal)) (p : Fin 10000) (q : Fin 128)
  (hv : 0 < mv q + e)

include he hv

/-- The square root of a positive variance plus epsilon is the real square root. -/
theorem sqrt_coe_of_pos :
    Ideal.sqrt (((mv q : ℝ) : EReal) + eps) = ((Real.sqrt (mv q + e) : ℝ) : EReal) := by
  rw [he, ← EReal.coe_add, Ideal.sqrt_coe, if_neg (not_lt.mpr hv.le)]

/-- The folded scale on real inputs. -/
theorem scale_coe :
    scale (fun j => ((g j : ℝ) : EReal)) (fun j => ((mv j : ℝ) : EReal)) q
      = ((g q * (1 / Real.sqrt (mv q + e)) : ℝ) : EReal) := by
  show Ideal.div ((g q : ℝ) : EReal) (Ideal.sqrt (((mv q : ℝ) : EReal) + eps)) = _
  rw [sqrt_coe_of_pos mv e he q hv, Ideal.div_coe (Real.sqrt_pos.mpr hv).ne', ← EReal.coe_mul]

/-- The kernel's arrangement on real inputs is its real-number expression. -/
theorem kLayer_coe :
    kLayer (fun n k => ((X n k : ℝ) : EReal)) (fun i n => ((A i n : ℝ) : EReal)) (fun k j => ((W k j : ℝ) : EReal))
        (fun j => ((b j : ℝ) : EReal)) (fun j => ((g j : ℝ) : EReal)) (fun j => ((beta j : ℝ) : EReal))
        (fun j => ((mm j : ℝ) : EReal)) (fun j => ((mv j : ℝ) : EReal)) p q
      = ((kLayerR X A W b g beta mm mv e p q : ℝ) : EReal) := by
  unfold kLayer kLayerR
  rw [scale_coe g mv e he q hv]
  simp only [← EReal.coe_mul, ← EReal.coe_sub, ← EReal.coe_add, coe_sum]
  rw [← EReal.coe_zero, coe_max]

/-- The reference's arrangement on real inputs is its real-number expression. -/
theorem rLayer_coe :
    rLayer (fun n k => ((X n k : ℝ) : EReal)) (fun i n => ((A i n : ℝ) : EReal)) (fun k j => ((W k j : ℝ) : EReal))
        (fun j => ((b j : ℝ) : EReal)) (fun j => ((g j : ℝ) : EReal)) (fun j => ((beta j : ℝ) : EReal))
        (fun j => ((mm j : ℝ) : EReal)) (fun j => ((mv j : ℝ) : EReal)) p q
      = ((rLayerR X A W b g beta mm mv e p q : ℝ) : EReal) := by
  unfold rLayer rLayerR
  rw [sqrt_coe_of_pos mv e he q hv, Ideal.div_coe (Real.sqrt_pos.mpr hv).ne']
  simp only [← EReal.coe_mul, ← EReal.coe_sub, ← EReal.coe_add, coe_sum]
  rw [← EReal.coe_zero, coe_max]

end Coe

/-! ### One layer, then two -/

section Layer

variable (X : Fin 10000 → Fin 128 → EReal) (A : Fin 10000 → Fin 10000 → EReal) (W : Fin 128 → Fin 128 → EReal)
  (b g beta mm mv : Fin 128 → EReal)
  (hX : ∀ n k, IsReal (X n k)) (hA : ∀ p n, IsReal (A p n)) (hW : ∀ k q, IsReal (W k q)) (hb : ∀ q, IsReal (b q))
  (hg : ∀ q, IsReal (g q)) (hbeta : ∀ q, IsReal (beta q)) (hmm : ∀ q, IsReal (mm q)) (hmv : ∀ q, IsReal (mv q))
  (hv : ∀ q, 0 < mv q + eps)

include hX hA hW hb hg hbeta hmm hmv hv

/-- On real inputs with positive variance plus epsilon, both arrangements of a layer are one real number. -/
theorem layers_coe (p : Fin 10000) (q : Fin 128) :
    ∃ r : ℝ, kLayer X A W b g beta mm mv p q = (r : EReal) ∧ rLayer X A W b g beta mm mv p q = (r : EReal) := by
  obtain ⟨Xr, rfl⟩ := exists_real₂ hX
  obtain ⟨Ar, rfl⟩ := exists_real₂ hA
  obtain ⟨Wr, rfl⟩ := exists_real₂ hW
  obtain ⟨br, rfl⟩ := exists_real₁ hb
  obtain ⟨gr, rfl⟩ := exists_real₁ hg
  obtain ⟨betar, rfl⟩ := exists_real₁ hbeta
  obtain ⟨mmr, rfl⟩ := exists_real₁ hmm
  obtain ⟨mvr, rfl⟩ := exists_real₁ hmv
  obtain ⟨e, he⟩ := eps_isReal
  have hvq : 0 < mvr q + e := by
    simpa only [he, ← EReal.coe_add, EReal.coe_pos] using hv q
  exact ⟨kLayerR Xr Ar Wr br gr betar mmr mvr e p q, kLayer_coe Xr Ar Wr br gr betar mmr mvr e he p q hvq,
    (rLayer_coe Xr Ar Wr br gr betar mmr mvr e he p q hvq).trans
      (congrArg _ (kLayerR_eq_rLayerR Xr Ar Wr br gr betar mmr mvr e p q).symm)⟩

/-- One layer: the kernel's arrangement equals the reference's. -/
theorem kLayer_eq_rLayer : kLayer X A W b g beta mm mv = rLayer X A W b g beta mm mv := by
  funext p q
  obtain ⟨r, hk, hr⟩ := layers_coe X A W b g beta mm mv hX hA hW hb hg hbeta hmm hmv hv p q
  rw [hk, hr]

/-- One layer's result is a real number at every index. -/
theorem kLayer_isReal (p : Fin 10000) (q : Fin 128) : IsReal (kLayer X A W b g beta mm mv p q) := by
  obtain ⟨r, hk, _⟩ := layers_coe X A W b g beta mm mv hX hA hW hb hg hbeta hmm hmv hv p q
  exact ⟨r, hk⟩

end Layer

/-- Two stacked layers: the kernel's arrangement equals the reference's. -/
theorem kNet_eq_rNet (x : Fin 10000 → Fin 128 → EReal) (a : Fin 10000 → Fin 10000 → EReal) (W1 : Fin 128 → Fin 128 → EReal) (b1 g1 beta1 mm1 mv1 : Fin 128 → EReal) (W2 : Fin 128 → Fin 128 → EReal) (b2 g2 beta2 mm2 mv2 : Fin 128 → EReal)
    (hx : ∀ n k, IsReal (x n k)) (ha : ∀ p n, IsReal (a p n)) (hW1 : ∀ k q, IsReal (W1 k q)) (hb1 : ∀ q, IsReal (b1 q)) (hg1 : ∀ q, IsReal (g1 q)) (hbeta1 : ∀ q, IsReal (beta1 q)) (hmm1 : ∀ q, IsReal (mm1 q)) (hmv1 : ∀ q, IsReal (mv1 q))
    (hW2 : ∀ k q, IsReal (W2 k q)) (hb2 : ∀ q, IsReal (b2 q)) (hg2 : ∀ q, IsReal (g2 q)) (hbeta2 : ∀ q, IsReal (beta2 q)) (hmm2 : ∀ q, IsReal (mm2 q)) (hmv2 : ∀ q, IsReal (mv2 q))
    (hv1 : ∀ q, 0 < mv1 q + eps) (hv2 : ∀ q, 0 < mv2 q + eps) :
    kNet x a W1 b1 g1 beta1 mm1 mv1 W2 b2 g2 beta2 mm2 mv2 = rNet x a W1 b1 g1 beta1 mm1 mv1 W2 b2 g2 beta2 mm2 mv2 := by
  have h1 := kLayer_eq_rLayer x a W1 b1 g1 beta1 mm1 mv1 hx ha hW1 hb1 hg1 hbeta1 hmm1 hmv1 hv1
  have hr1 := kLayer_isReal x a W1 b1 g1 beta1 mm1 mv1 hx ha hW1 hb1 hg1 hbeta1 hmm1 hmv1 hv1
  unfold kNet rNet
  rw [← h1]
  exact kLayer_eq_rLayer (kLayer x a W1 b1 g1 beta1 mm1 mv1) a W2 b2 g2 beta2 mm2 mv2 hr1 ha hW2 hb2 hg2 hbeta2 hmm2 hmv2 hv2

end Cert.Gcn

end
-- ==== Proof.PreDecode.lean ====
/-
  What the precondition says of the arguments, element by element.

  The precondition is a conjunction of sixteen "all elements satisfy …" tests that comes out true. Fourteen of them
  say that an argument's every entry has absolute value below +∞: such an extended real is neither infinity, so it is
  a real number. The last two say that the two running variances plus the epsilon are positive at every channel.
-/
import proofs.«127892_g13743895347428_cont_sun_m_1394_3_alg».proof.Pre_finite_inputs
import proofs.«127892_g13743895347428_cont_sun_m_1394_3_alg».proof.Proof.GcnSpec
import Idealize.ShloMosaic.Lib.ReduceAll
import Idealize.ShloMosaic.Lib.ValueIdx

noncomputable section

namespace Cert.PreDecode

open Idealize.ShloMosaic Cert.Pre_finite_inputs Cert.Pre_finite_inputs.Facts

/-- The scalar shape has one index. -/
instance : Subsingleton S_.Idx := ⟨fun a b => funext fun d => d.elim0⟩

/-- A one-bit word made from a truth value is 1 exactly when the truth value is true. -/
theorem ofBool_eq_one {b : Bool} : BitVec.ofBool b = 1#1 ↔ b = true := by cases b <;> decide

/-! ### One element -/

/-- An extended real whose absolute value is below +∞ is a real number. -/
theorem isReal_of_abs_lt_inf (x : EReal)
    (h : Ideal.cmp .olt (max x (-x)) (Ideal.ofBits .f32 0x7F800000#32) = 1#1) : Cert.Gcn.IsReal x := by
  have htop : Ideal.ofBits .f32 0x7F800000#32 = ⊤ := by simp [Ideal.ofBits, Ideal.ieee]
  rw [htop] at h
  have hlt : max x (-x) < ⊤ := by simpa only [Ideal.cmp, ofBool_eq_one, decide_eq_true_eq] using h
  induction x with
  | bot => simp at hlt
  | coe r => exact ⟨r, rfl⟩
  | top => simp at hlt

/-- "x plus the epsilon is greater than zero", read back. -/
theorem pos_of_gt_zero (x : EReal)
    (h : Ideal.cmp .ogt (x + Ideal.ofBits .f32 0x3A83126F#32) (Ideal.ofBits .f32 0x00000000#32) = 1#1) :
    0 < x + Cert.Gcn.eps := by
  rw [Ideal.ofBits_zero_f32] at h
  show 0 < x + Ideal.ofBits .f32 0x3A83126F#32
  simpa only [Ideal.cmp, ofBool_eq_one, decide_eq_true_eq] using h

/-! ### One test over a whole array -/

/-- If "every entry has absolute value below +∞" comes out true, every entry is a real number. -/
theorem real_of_all {s : Shape} {axes : List (Fin s.rank)} (hred : s.ReducesTo axes S_) (hu : 0 < S_.numel)
    {dims : Fin S_.rank → Fin s.rank} (bc : S_.BroadcastsInDim s dims) (a : FVec Ideal s .f32)
    (h : Host.reduce IntOp.andi (cmpf .olt (Host.absf a) (broadcastInDim s dims bc (constant S_ .f32 0x7F800000#32)))
      (constantI S_ 1 1#1) hred hu ValueIdx.ix0 = 1#1) (i : s.Idx) : Cert.Gcn.IsReal (a i) :=
  isReal_of_abs_lt_inf (a i) (Host.reduce_andi_all _ _ hred hu _ h i)

/-- If "every entry plus the epsilon is greater than zero" comes out true, every entry plus the epsilon is positive. -/
theorem pos_of_all {axes : List (Fin S128.rank)} (hred : S128.ReducesTo axes S_) (hu : 0 < S_.numel)
    {dims : Fin S_.rank → Fin S128.rank} (bc : S_.BroadcastsInDim S128 dims) (a : FVec Ideal S128 .f32)
    (h : Host.reduce IntOp.andi (cmpf .ogt (addf a (broadcastInDim S128 dims bc (constant S_ .f32 0x3A83126F#32)))
      (broadcastInDim S128 dims bc (constant S_ .f32 0x00000000#32))) (constantI S_ 1 1#1) hred hu ValueIdx.ix0 = 1#1)
    (j : Fin 128) : 0 < a (ValueIdx.ix1 j) + Cert.Gcn.eps :=
  pos_of_gt_zero _ (Host.reduce_andi_all _ _ hred hu _ h (ValueIdx.ix1 j))

/-! ### The whole precondition -/

section Pre

variable [Cert.Pre_finite_inputs.Facts]
variable (a0 : FVec Ideal S10000x128 .f32) (a1 : FVec Ideal S10000x10000 .f32) (a2 : FVec Ideal S128x128 .f32)
  (a3 a4 a5 a6 a7 : FVec Ideal S128 .f32) (a8 : FVec Ideal S128x128 .f32) (a9 a10 a11 a12 a13 : FVec Ideal S128 .f32)
  (h : Cert.Pre_finite_inputs.fn (F := Ideal) a0 a1 a2 a3 a4 a5 a6 a7 a8 a9 a10 a11 a12 a13 = (fun _ => 1#1))

include h

/-- The sixteen tests, each read back over its whole array. -/
theorem all_tests :
    (∀ i, Cert.Gcn.IsReal (a0 i)) ∧ (∀ i, Cert.Gcn.IsReal (a1 i)) ∧ (∀ i, Cert.Gcn.IsReal (a2 i))
    ∧ (∀ i, Cert.Gcn.IsReal (a3 i)) ∧ (∀ i, Cert.Gcn.IsReal (a4 i)) ∧ (∀ i, Cert.Gcn.IsReal (a5 i))
    ∧ (∀ i, Cert.Gcn.IsReal (a6 i)) ∧ (∀ i, Cert.Gcn.IsReal (a7 i)) ∧ (∀ i, Cert.Gcn.IsReal (a8 i))
    ∧ (∀ i, Cert.Gcn.IsReal (a9 i)) ∧ (∀ i, Cert.Gcn.IsReal (a10 i)) ∧ (∀ i, Cert.Gcn.IsReal (a11 i))
    ∧ (∀ i, Cert.Gcn.IsReal (a12 i)) ∧ (∀ i, Cert.Gcn.IsReal (a13 i))
    ∧ (∀ j : Fin 128, 0 < a7 (ValueIdx.ix1 j) + Cert.Gcn.eps)
    ∧ (∀ j : Fin 128, 0 < a13 (ValueIdx.ix1 j) + Cert.Gcn.eps) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨⟨t0, t1⟩, t2⟩, t3⟩, t4⟩, t5⟩, t6⟩, t7⟩, t8⟩, t9⟩, t10⟩, t11⟩, t12⟩, t13⟩, p1⟩, p2⟩ := h0
  exact ⟨real_of_all _ _ _ a0 t0, real_of_all _ _ _ a1 t1, real_of_all _ _ _ a2 t2, real_of_all _ _ _ a3 t3,
    real_of_all _ _ _ a4 t4, real_of_all _ _ _ a5 t5, real_of_all _ _ _ a6 t6, real_of_all _ _ _ a7 t7,
    real_of_all _ _ _ a8 t8, real_of_all _ _ _ a9 t9, real_of_all _ _ _ a10 t10, real_of_all _ _ _ a11 t11,
    real_of_all _ _ _ a12 t12, real_of_all _ _ _ a13 t13, pos_of_all _ _ _ a7 p1, pos_of_all _ _ _ a13 p2⟩

theorem real_arg0 : ∀ i, Cert.Gcn.IsReal (a0 i) := (all_tests a0 a1 a2 a3 a4 a5 a6 a7 a8 a9 a10 a11 a12 a13 h).1
theorem real_arg1 : ∀ i, Cert.Gcn.IsReal (a1 i) := (all_tests a0 a1 a2 a3 a4 a5 a6 a7 a8 a9 a10 a11 a12 a13 h).2.1
theorem real_arg2 : ∀ i, Cert.Gcn.IsReal (a2 i) := (all_tests a0 a1 a2 a3 a4 a5 a6 a7 a8 a9 a10 a11 a12 a13 h).2.2.1
theorem real_arg3 : ∀ i, Cert.Gcn.IsReal (a3 i) := (all_tests a0 a1 a2 a3 a4 a5 a6 a7 a8 a9 a10 a11 a12 a13 h).2.2.2.1
theorem real_arg4 : ∀ i, Cert.Gcn.IsReal (a4 i) := (all_tests a0 a1 a2 a3 a4 a5 a6 a7 a8 a9 a10 a11 a12 a13 h).2.2.2.2.1
theorem real_arg5 : ∀ i, Cert.Gcn.IsReal (a5 i) := (all_tests a0 a1 a2 a3 a4 a5 a6 a7 a8 a9 a10 a11 a12 a13 h).2.2.2.2.2.1
theorem real_arg6 : ∀ i, Cert.Gcn.IsReal (a6 i) := (all_tests a0 a1 a2 a3 a4 a5 a6 a7 a8 a9 a10 a11 a12 a13 h).2.2.2.2.2.2.1
theorem real_arg7 : ∀ i, Cert.Gcn.IsReal (a7 i) := (all_tests a0 a1 a2 a3 a4 a5 a6 a7 a8 a9 a10 a11 a12 a13 h).2.2.2.2.2.2.2.1
theorem real_arg8 : ∀ i, Cert.Gcn.IsReal (a8 i) := (all_tests a0 a1 a2 a3 a4 a5 a6 a7 a8 a9 a10 a11 a12 a13 h).2.2.2.2.2.2.2.2.1
theorem real_arg9 : ∀ i, Cert.Gcn.IsReal (a9 i) := (all_tests a0 a1 a2 a3 a4 a5 a6 a7 a8 a9 a10 a11 a12 a13 h).2.2.2.2.2.2.2.2.2.1
theorem real_arg10 : ∀ i, Cert.Gcn.IsReal (a10 i) := (all_tests a0 a1 a2 a3 a4 a5 a6 a7 a8 a9 a10 a11 a12 a13 h).2.2.2.2.2.2.2.2.2.2.1
theorem real_arg11 : ∀ i, Cert.Gcn.IsReal (a11 i) := (all_tests a0 a1 a2 a3 a4 a5 a6 a7 a8 a9 a10 a11 a12 a13 h).2.2.2.2.2.2.2.2.2.2.2.1
theorem real_arg12 : ∀ i, Cert.Gcn.IsReal (a12 i) := (all_tests a0 a1 a2 a3 a4 a5 a6 a7 a8 a9 a10 a11 a12 a13 h).2.2.2.2.2.2.2.2.2.2.2.2.1
theorem real_arg13 : ∀ i, Cert.Gcn.IsReal (a13 i) := (all_tests a0 a1 a2 a3 a4 a5 a6 a7 a8 a9 a10 a11 a12 a13 h).2.2.2.2.2.2.2.2.2.2.2.2.2.1
theorem pos_mv1 : ∀ j : Fin 128, 0 < a7 (ValueIdx.ix1 j) + Cert.Gcn.eps :=
  (all_tests a0 a1 a2 a3 a4 a5 a6 a7 a8 a9 a10 a11 a12 a13 h).2.2.2.2.2.2.2.2.2.2.2.2.2.2.1
theorem pos_mv2 : ∀ j : Fin 128, 0 < a13 (ValueIdx.ix1 j) + Cert.Gcn.eps :=
  (all_tests a0 a1 a2 a3 a4 a5 a6 a7 a8 a9 a10 a11 a12 a13 h).2.2.2.2.2.2.2.2.2.2.2.2.2.2.2

end Pre

end Cert.PreDecode

end
-- ==== Proof.lean ====
/-
  Two stacked graph-convolution layers: a kernel that folds each layer's inference-time normalisation into its
  weights and bias, against a reference that normalises after the matrix products.

  The three frames. Each kernel program is host operations, a region, host operations, a region; its run is followed
  segment by segment (the word-level and the idealized program by the same argument), and no segment writes an
  argument array. The reference is host operations only.

  The idealization rewrote nothing, so there is nothing to preserve.

  The values. On the extended reals the kernel's result is, entry by entry,
      max ( (sum_n A_pn (sum_k X_nk (W_kq s_q))) + ((b_q - mm_q) s_q + beta_q), 0 ),   s_q = g_q / sqrt (mv_q + eps),
  and the reference's is
      max ( ((sum_n A_pn (sum_k X_nk W_kq)) + b_q - mm_q) / sqrt (mv_q + eps) * g_q + beta_q, 0 ),
  each applied twice. Under the precondition every input entry is a real number and mv_q + eps is positive, so the
  square root is a positive real, both quotients are products with its reciprocal, every sum is a finite sum of reals,
  and the two expressions are equal by distributivity.
-/
import proofs.«127892_g13743895347428_cont_sun_m_1394_3_alg».proof.Defs
import proofs.«127892_g13743895347428_cont_sun_m_1394_3_alg».proof.Proof.Gen.Kernel
import proofs.«127892_g13743895347428_cont_sun_m_1394_3_alg».proof.Proof.Gen.KernelIdeal
import proofs.«127892_g13743895347428_cont_sun_m_1394_3_alg».proof.Proof.Gen.ReferenceIdeal
import proofs.«127892_g13743895347428_cont_sun_m_1394_3_alg».proof.Proof.Gen.Pre_finite_inputs
import proofs.«127892_g13743895347428_cont_sun_m_1394_3_alg».proof.Proof.K.Frame
import proofs.«127892_g13743895347428_cont_sun_m_1394_3_alg».proof.Proof.KI.Frame
import proofs.«127892_g13743895347428_cont_sun_m_1394_3_alg».proof.Proof.KI.Value
import proofs.«127892_g13743895347428_cont_sun_m_1394_3_alg».proof.Proof.RefRead
import proofs.«127892_g13743895347428_cont_sun_m_1394_3_alg».proof.Proof.RefIsSpec
import proofs.«127892_g13743895347428_cont_sun_m_1394_3_alg».proof.Proof.GcnLaw
import proofs.«127892_g13743895347428_cont_sun_m_1394_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments unchanged. -/
theorem frame_k : Cert.frame_Kernel := fun m ρ _ => Cert.Kernel.Net.frame m ρ

/-- So does the idealized kernel. -/
theorem frame_ki : Cert.frame_KernelIdeal := fun m ρ _ => Cert.KernelIdeal.Net.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end, with equal results: the kernel's is both layers in its own arrangement, the
    reference's both layers in the reference's, and under the precondition the two arrangements agree. -/
theorem algebraic : Cert.algebraic_KernelIdeal_ReferenceIdeal := by
  intro m ρ m' ρ' hpre hagree
  refine ⟨fun c => Cert.KernelIdeal.Net.W4 m ρ c (Proc.devRef .tc Cert.KernelIdeal.main_v23), ?_, ?_⟩
  · exact (θ_run Cert.KernelIdeal.defs _ _).mono (fun r h c =>
      ⟨h c _ (Cert.KernelIdeal.Net.mem_uc Cert.KernelIdeal.main_v23 (by decide)),
        (h c _ (Cert.KernelIdeal.Net.mem_uc Cert.KernelIdeal.main_arg0 (by decide))).trans (Cert.KernelIdeal.Net.W4_launch m ρ c Cert.KernelIdeal.main_arg0 (by decide) (by decide) (by decide) (by decide)),
        (h c _ (Cert.KernelIdeal.Net.mem_uc Cert.KernelIdeal.main_arg1 (by decide))).trans (Cert.KernelIdeal.Net.W4_launch m ρ c Cert.KernelIdeal.main_arg1 (by decide) (by decide) (by decide) (by decide)),
        (h c _ (Cert.KernelIdeal.Net.mem_uc Cert.KernelIdeal.main_arg2 (by decide))).trans (Cert.KernelIdeal.Net.W4_launch m ρ c Cert.KernelIdeal.main_arg2 (by decide) (by decide) (by decide) (by decide)),
        (h c _ (Cert.KernelIdeal.Net.mem_uc Cert.KernelIdeal.main_arg3 (by decide))).trans (Cert.KernelIdeal.Net.W4_launch m ρ c Cert.KernelIdeal.main_arg3 (by decide) (by decide) (by decide) (by decide)),
        (h c _ (Cert.KernelIdeal.Net.mem_uc Cert.KernelIdeal.main_arg4 (by decide))).trans (Cert.KernelIdeal.Net.W4_launch m ρ c Cert.KernelIdeal.main_arg4 (by decide) (by decide) (by decide) (by decide)),
        (h c _ (Cert.KernelIdeal.Net.mem_uc Cert.KernelIdeal.main_arg5 (by decide))).trans (Cert.KernelIdeal.Net.W4_launch m ρ c Cert.KernelIdeal.main_arg5 (by decide) (by decide) (by decide) (by decide)),
        (h c _ (Cert.KernelIdeal.Net.mem_uc Cert.KernelIdeal.main_arg6 (by decide))).trans (Cert.KernelIdeal.Net.W4_launch m ρ c Cert.KernelIdeal.main_arg6 (by decide) (by decide) (by decide) (by decide)),
        (h c _ (Cert.KernelIdeal.Net.mem_uc Cert.KernelIdeal.main_arg7 (by decide))).trans (Cert.KernelIdeal.Net.W4_launch m ρ c Cert.KernelIdeal.main_arg7 (by decide) (by decide) (by decide) (by decide)),
        (h c _ (Cert.KernelIdeal.Net.mem_uc Cert.KernelIdeal.main_arg8 (by decide))).trans (Cert.KernelIdeal.Net.W4_launch m ρ c Cert.KernelIdeal.main_arg8 (by decide) (by decide) (by decide) (by decide)),
        (h c _ (Cert.KernelIdeal.Net.mem_uc Cert.KernelIdeal.main_arg9 (by decide))).trans (Cert.KernelIdeal.Net.W4_launch m ρ c Cert.KernelIdeal.main_arg9 (by decide) (by decide) (by decide) (by decide)),
        (h c _ (Cert.KernelIdeal.Net.mem_uc Cert.KernelIdeal.main_arg10 (by decide))).trans (Cert.KernelIdeal.Net.W4_launch m ρ c Cert.KernelIdeal.main_arg10 (by decide) (by decide) (by decide) (by decide)),
        (h c _ (Cert.KernelIdeal.Net.mem_uc Cert.KernelIdeal.main_arg11 (by decide))).trans (Cert.KernelIdeal.Net.W4_launch m ρ c Cert.KernelIdeal.main_arg11 (by decide) (by decide) (by decide) (by decide)),
        (h c _ (Cert.KernelIdeal.Net.mem_uc Cert.KernelIdeal.main_arg12 (by decide))).trans (Cert.KernelIdeal.Net.W4_launch m ρ c Cert.KernelIdeal.main_arg12 (by decide) (by decide) (by decide) (by decide)),
        (h c _ (Cert.KernelIdeal.Net.mem_uc Cert.KernelIdeal.main_arg13 (by decide))).trans (Cert.KernelIdeal.Net.W4_launch m ρ c Cert.KernelIdeal.main_arg13 (by decide) (by decide) (by decide) (by decide))⟩)
      (Cert.KernelIdeal.Net.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [e0, e1, e2, e3, e4, e5, e6, e7, e8, e9, e10, e11, e12, e13]
    have H := hpre c
    funext i
    obtain ⟨p, q, rfl⟩ : ∃ (p : Fin 10000) (q : Fin 128), i = ix2 p q := ⟨i 0, i 1, eq_ix2 i⟩
    refine (Cert.RefSpec.ref_is_rNet _ _ _ _ _ _ _ _ _ _ _ _ _ _ p q).trans ?_
    refine (congrFun (congrFun (Cert.Gcn.kNet_eq_rNet _ _ _ _ _ _ _ _ _ _ _ _ _ _
      (fun n k => Cert.PreDecode.real_arg0 _ _ _ _ _ _ _ _ _ _ _ _ _ _ H (ix2 n k)) (fun i n => Cert.PreDecode.real_arg1 _ _ _ _ _ _ _ _ _ _ _ _ _ _ H (ix2 i n)) (fun k j => Cert.PreDecode.real_arg2 _ _ _ _ _ _ _ _ _ _ _ _ _ _ H (ix2 k j))
      (fun j => Cert.PreDecode.real_arg3 _ _ _ _ _ _ _ _ _ _ _ _ _ _ H (ix1 j)) (fun j => Cert.PreDecode.real_arg4 _ _ _ _ _ _ _ _ _ _ _ _ _ _ H (ix1 j)) (fun j => Cert.PreDecode.real_arg5 _ _ _ _ _ _ _ _ _ _ _ _ _ _ H (ix1 j)) (fun j => Cert.PreDecode.real_arg6 _ _ _ _ _ _ _ _ _ _ _ _ _ _ H (ix1 j)) (fun j => Cert.PreDecode.real_arg7 _ _ _ _ _ _ _ _ _ _ _ _ _ _ H (ix1 j))
      (fun k j => Cert.PreDecode.real_arg8 _ _ _ _ _ _ _ _ _ _ _ _ _ _ H (ix2 k j))
      (fun j => Cert.PreDecode.real_arg9 _ _ _ _ _ _ _ _ _ _ _ _ _ _ H (ix1 j)) (fun j => Cert.PreDecode.real_arg10 _ _ _ _ _ _ _ _ _ _ _ _ _ _ H (ix1 j)) (fun j => Cert.PreDecode.real_arg11 _ _ _ _ _ _ _ _ _ _ _ _ _ _ H (ix1 j)) (fun j => Cert.PreDecode.real_arg12 _ _ _ _ _ _ _ _ _ _ _ _ _ _ H (ix1 j)) (fun j => Cert.PreDecode.real_arg13 _ _ _ _ _ _ _ _ _ _ _ _ _ _ H (ix1 j))
      (Cert.PreDecode.pos_mv1 _ _ _ _ _ _ _ _ _ _ _ _ _ _ H) (Cert.PreDecode.pos_mv2 _ _ _ _ _ _ _ _ _ _ _ _ _ _ H)) p) q).symm.trans ?_
    exact (Cert.KernelIdeal.Net.result_value m ρ c p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
